-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S1000x3 : Shape := ⟨2, ![1000, 3]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S2x128x128 : Shape := ⟨3, ![2, 128, 128]⟩
abbrev S2x128 : Shape := ⟨2, ![2, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x6 : S_.BroadcastsInDim S262144x6 (![] : Fin 0 → Fin S262144x6.rank)
  reducesTo_S262144x6_S_d0_1 : S262144x6.ReducesTo [0, 1] S_
  bcast_S_S2097152x42 : S_.BroadcastsInDim S2097152x42 (![] : Fin 0 → Fin S2097152x42.rank)
  reducesTo_S2097152x42_S_d0_1 : S2097152x42.ReducesTo [0, 1] S_
  bcast_S_S1000x3 : S_.BroadcastsInDim S1000x3 (![] : Fin 0 → Fin S1000x3.rank)
  reducesTo_S1000x3_S_d0_1 : S1000x3.ReducesTo [0, 1] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part6 {F : FTy → Type} [FloatOps F] (main_arg23 : FVec F S2x128 .f32) (main_arg24 : FVec F S2x128x128 .f32) (main_arg25 : FVec F S2x128 .f32) (main_v98 : IVec S_ 1) (main_v101 : IVec S2x128x128 1) (main_c_39 : IVec S_ 1) : IVec S_ 1 :=
  let main_v102 : IVec S_ 1 := (fun x v => Host.reduce IntOp.andi x v reducesTo_S2x128x128_S_d0_1_2 h_S_) main_v101 main_c_39
  let main_v103 : IVec S_ 1 := andi main_v98 main_v102
  let main_v104 : FVec F S2x128 .f32 := Host.absf main_arg23
  let main_cst_40 : FVec F S_ .f32 := constant S_ .f32 0x7F800000#32
  let main_v105 : FVec F S2x128 .f32 := broadcastInDim S2x128 ![] bcast_S_S2x128 main_cst_40
  let main_v106 : IVec S2x128 1 := cmpf .olt main_v104 main_v105
  let main_c_41 : IVec S_ 1 := constantI S_ 1 1#1
  let main_v107 : IVec S_ 1 := (fun x v => Host.reduce IntOp.andi x v reducesTo_S2x128_S_d0_1 h_S_) main_v106 main_c_41
  let main_v108 : IVec S_ 1 := andi main_v103 main_v107
  let main_v109 : FVec F S2x128x128 .f32 := Host.absf main_arg24
  let main_cst_42 : FVec F S_ .f32 := constant S_ .f32 0x7F800000#32
  let main_v110 : FVec F S2x128x128 .f32 := broadcastInDim S2x128x128 ![] bcast_S_S2x128x128 main_cst_42
  let main_v111 : IVec S2x128x128 1 := cmpf .olt main_v109 main_v110
  let main_c_43 : IVec S_ 1 := constantI S_ 1 1#1
  let main_v112 : IVec S_ 1 := (fun x v => Host.reduce IntOp.andi x v reducesTo_S2x128x128_S_d0_1_2 h_S_) main_v111 main_c_43
  let main_v113 : IVec S_ 1 := andi main_v108 main_v112
  let main_v114 : FVec F S2x128 .f32 := Host.absf main_arg25
  let main_cst_44 : FVec F S_ .f32 := constant S_ .f32 0x7F800000#32
  let main_v115 : FVec F S2x128 .f32 := broadcastInDim S2x128 ![] bcast_S_S2x128 main_cst_44
  let main_v116 : IVec S2x128 1 := cmpf .olt main_v114 main_v115
  let main_c_45 : IVec S_ 1 := constantI S_ 1 1#1
  let main_v117 : IVec S_ 1 := (fun x v => Host.reduce IntOp.andi x v reducesTo_S2x128_S_d0_1 h_S_) main_v116 main_c_45
  let main_v118 : IVec S_ 1 := andi main_v113 main_v117
  main_v118

def fn_part5 {F : FTy → Type} [FloatOps F] (main_arg20 : FVec F S128x128 .f32) (main_arg21 : FVec F S128 .f32) (main_arg22 : FVec F S2x128x128 .f32) (main_arg23 : FVec F S2x128 .f32) (main_arg24 : FVec F S2x128x128 .f32) (main_arg25 : FVec F S2x128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S2x128x128 .f32 := Host.absf main_arg22
  let main_cst_38 : FVec F S_ .f32 := constant S_ .f32 0x7F800000#32
  let main_v100 : FVec F S2x128x128 .f32 := broadcastInDim S2x128x128 ![] bcast_S_S2x128x128 main_cst_38
  let main_v101 : IVec S2x128x128 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S2x128x128 .f32) (main_arg23 : FVec F S2x128 .f32) (main_arg24 : FVec F S2x128x128 .f32) (main_arg25 : FVec F S2x128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S128 .f32) (main_arg14 : FVec F S128x64 .f32) (main_arg15 : FVec F S64x128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S2x128x128 .f32) (main_arg23 : FVec F S2x128 .f32) (main_arg24 : FVec F S2x128x128 .f32) (main_arg25 : FVec F S2x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64x128 .f32 := Host.absf main_arg15
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S8x64 .f32) (main_arg10 : FVec F S128x128 .f32) (main_arg11 : FVec F S128 .f32) (main_arg12 : FVec F S128x128 .f32) (main_arg13 : FVec F S128 .f32) (main_arg14 : FVec F S128x64 .f32) (main_arg15 : FVec F S64x128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S2x128x128 .f32) (main_arg23 : FVec F S2x128 .f32) (main_arg24 : FVec F S2x128x128 .f32) (main_arg25 : FVec F S2x128 .f32) (main_v33 : IVec S_ 1) : IVec S_ 1 :=
  let main_v34 : FVec F S8x64 .f32 := Host.absf main_arg9
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S6x8 .f32) (main_arg7 : FVec F S8x128 .f32) (main_arg8 : FVec F S42x8 .f32) (main_arg9 : FVec F S8x64 .f32) (main_arg10 : FVec F S128x128 .f32) (main_arg11 : FVec F S128 .f32) (main_arg12 : FVec F S128x128 .f32) (main_arg13 : FVec F S128 .f32) (main_arg14 : FVec F S128x64 .f32) (main_arg15 : FVec F S64x128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S2x128x128 .f32) (main_arg23 : FVec F S2x128 .f32) (main_arg24 : FVec F S2x128x128 .f32) (main_arg25 : FVec F S2x128 .f32) (main_v13 : IVec S_ 1) (main_v16 : IVec S1000x3 1) : IVec S_ 1 :=
  let main_c_5 : IVec S_ 1 := constantI S_ 1 1#1
  let main_v17 : IVec S_ 1 := (fun x v => Host.reduce IntOp.andi x v reducesTo_S1000x3_S_d0_1 h_S_) main_v16 main_c_5
  let main_v18 : IVec S_ 1 := andi main_v13 main_v17
  let main_v19 : FVec F S6x8 .f32 := Host.absf main_arg6
  let main_cst_6 : FVec F S_ .f32 := constant S_ .f32 0x7F800000#32
  let main_v20 : FVec F S6x8 .f32 := broadcastInDim S6x8 ![] bcast_S_S6x8 main_cst_6
  let main_v21 : IVec S6x8 1 := cmpf .olt main_v19 main_v20
  let main_c_7 : IVec S_ 1 := constantI S_ 1 1#1
  let main_v22 : IVec S_ 1 := (fun x v => Host.reduce IntOp.andi x v reducesTo_S6x8_S_d0_1 h_S_) main_v21 main_c_7
  let main_v23 : IVec S_ 1 := andi main_v18 main_v22
  let main_v24 : FVec F S8x128 .f32 := Host.absf main_arg7
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S42x8 .f32 := Host.absf main_arg8
  let main_cst_10 : FVec F S_ .f32 := constant S_ .f32 0x7F800000#32
  let main_v30 : FVec F S42x8 .f32 := broadcastInDim S42x8 ![] bcast_S_S42x8 main_cst_10
  let main_v31 : IVec S42x8 1 := cmpf .olt main_v29 main_v30
  let main_c_11 : IVec S_ 1 := constantI S_ 1 1#1
  let main_v32 : IVec S_ 1 := (fun x v => Host.reduce IntOp.andi x v reducesTo_S42x8_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S262144x128 .f32) (main_arg1 : FVec F S262144x6 .f32) (main_arg2 : FVec F S2097152x42 .f32) (main_arg3 : IVec S2097152 32) (main_arg4 : IVec S2097152 32) (main_arg5 : FVec F S1000x3 .f32) (main_arg6 : FVec F S6x8 .f32) (main_arg7 : FVec F S8x128 .f32) (main_arg8 : FVec F S42x8 .f32) (main_arg9 : FVec F S8x64 .f32) (main_arg10 : FVec F S128x128 .f32) (main_arg11 : FVec F S128 .f32) (main_arg12 : FVec F S128x128 .f32) (main_arg13 : FVec F S128 .f32) (main_arg14 : FVec F S128x64 .f32) (main_arg15 : FVec F S64x128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S2x128x128 .f32) (main_arg23 : FVec F S2x128 .f32) (main_arg24 : FVec F S2x128x128 .f32) (main_arg25 : FVec F S2x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x6 .f32 := Host.absf main_arg1
  let main_cst_0 : FVec F S_ .f32 := constant S_ .f32 0x7F800000#32
  let main_v5 : FVec F S262144x6 .f32 := broadcastInDim S262144x6 ![] bcast_S_S262144x6 main_cst_0
  let main_v6 : IVec S262144x6 1 := cmpf .olt main_v4 main_v5
  let main_c_1 : IVec S_ 1 := constantI S_ 1 1#1
  let main_v7 : IVec S_ 1 := (fun x v => Host.reduce IntOp.andi x v reducesTo_S262144x6_S_d0_1 h_S_) main_v6 main_c_1
  let main_v8 : IVec S_ 1 := andi main_v3 main_v7
  let main_v9 : FVec F S2097152x42 .f32 := Host.absf main_arg2
  let main_cst_2 : FVec F S_ .f32 := constant S_ .f32 0x7F800000#32
  let main_v10 : FVec F S2097152x42 .f32 := broadcastInDim S2097152x42 ![] bcast_S_S2097152x42 main_cst_2
  let main_v11 : IVec S2097152x42 1 := cmpf .olt main_v9 main_v10
  let main_c_3 : IVec S_ 1 := constantI S_ 1 1#1
  let main_v12 : IVec S_ 1 := (fun x v => Host.reduce IntOp.andi x v reducesTo_S2097152x42_S_d0_1 h_S_) main_v11 main_c_3
  let main_v13 : IVec S_ 1 := andi main_v8 main_v12
  let main_v14 : FVec F S1000x3 .f32 := Host.absf main_arg5
  let main_cst_4 : FVec F S_ .f32 := constant S_ .f32 0x7F800000#32
  let main_v15 : FVec F S1000x3 .f32 := broadcastInDim S1000x3 ![] bcast_S_S1000x3 main_cst_4
  let main_v16 : IVec S1000x3 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S1000x3 : Shape := ⟨2, ![1000, 3]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S2x128x128 : Shape := ⟨3, ![2, 128, 128]⟩
abbrev S2x128 : Shape := ⟨2, ![2, 128]⟩
abbrev S262144x64 : Shape := ⟨2, ![262144, 64]⟩
abbrev S4096x128 : Shape := ⟨2, ![4096, 128]⟩
abbrev S4096x6 : Shape := ⟨2, ![4096, 6]⟩
abbrev S4096x64 : Shape := ⟨2, ![4096, 64]⟩
abbrev S4096x8 : Shape := ⟨2, ![4096, 8]⟩
abbrev S1x128 : Shape := ⟨2, ![1, 128]⟩
abbrev S2097152x64 : Shape := ⟨2, ![2097152, 64]⟩
abbrev S8192x42 : Shape := ⟨2, ![8192, 42]⟩
abbrev S8192x64 : Shape := ⟨2, ![8192, 64]⟩
abbrev S8192x8 : Shape := ⟨2, ![8192, 8]⟩
abbrev S_ : Shape := ⟨0, ![]⟩
abbrev S2097152x1 : Shape := ⟨2, ![2097152, 1]⟩
abbrev S1x128x128 : Shape := ⟨3, ![1, 128, 128]⟩

abbrev nBuf : Space → Nat
  | .hbm => 45
  | .vmem => 36
  | .smem => 0
  | _ => 0

abbrev bufTy : (tb : Table) → Fin (tcTables nBuf tb) → BufTy
  | .hbm, ⟨0, _⟩ => ⟨S262144x128, .f32⟩
  | .hbm, ⟨1, _⟩ => ⟨S262144x6, .f32⟩
  | .hbm, ⟨2, _⟩ => ⟨S2097152x42, .f32⟩
  | .hbm, ⟨3, _⟩ => ⟨S2097152, .i32⟩
  | .hbm, ⟨4, _⟩ => ⟨S2097152, .i32⟩
  | .hbm, ⟨5, _⟩ => ⟨S1000x3, .f32⟩
  | .hbm, ⟨6, _⟩ => ⟨S6x8, .f32⟩
  | .hbm, ⟨7, _⟩ => ⟨S8x128, .f32⟩
  | .hbm, ⟨8, _⟩ => ⟨S42x8, .f32⟩
  | .hbm, ⟨9, _⟩ => ⟨S8x64, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x64, .f32⟩
  | .hbm, ⟨15, _⟩ => ⟨S64x128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S2x128x128, .f32⟩
  | .hbm, ⟨23, _⟩ => ⟨S2x128, .f32⟩
  | .hbm, ⟨24, _⟩ => ⟨S2x128x128, .f32⟩
  | .hbm, ⟨25, _⟩ => ⟨S2x128, .f32⟩
  | .hbm, ⟨26, _⟩ => ⟨S262144x64, .bf16⟩
  | .hbm, ⟨27, _⟩ => ⟨S2097152x64, .bf16⟩
  | .hbm, ⟨28, _⟩ => ⟨S_, .i32⟩
  | .hbm, ⟨29, _⟩ => ⟨S2097152, .i32⟩
  | .hbm, ⟨30, _⟩ => ⟨S2097152, .i1⟩
  | .hbm, ⟨31, _⟩ => ⟨S_, .i32⟩
  | .hbm, ⟨32, _⟩ => ⟨S2097152, .i32⟩
  | .hbm, ⟨33, _⟩ => ⟨S2097152, .i32⟩
  | .hbm, ⟨34, _⟩ => ⟨S2097152, .i32⟩
  | .hbm, ⟨35, _⟩ => ⟨S2097152x1, .i32⟩
  | .hbm, ⟨36, _⟩ => ⟨S2097152x64, .bf16⟩
  | .hbm, ⟨37, _⟩ => ⟨S2097152x64, .f32⟩
  | .hbm, ⟨38, _⟩ => ⟨S2097152x64, .f32⟩
  | .hbm, ⟨39, _⟩ => ⟨S2097152x64, .f32⟩
  | .hbm, ⟨40, _⟩ => ⟨S_, .f32⟩
  | .hbm, ⟨41, _⟩ => ⟨S262144x64, .f32⟩
  | .hbm, ⟨42, _⟩ => ⟨S2097152x1, .i32⟩
  | .hbm, ⟨43, _⟩ => ⟨S262144x64, .f32⟩
  | .hbm, ⟨44, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S4096x6, .f32⟩
  | .local _ .vmem, ⟨3, _⟩ => ⟨S4096x6, .f32⟩
  | .local _ .vmem, ⟨4, _⟩ => ⟨S6x8, .f32⟩
  | .local _ .vmem, ⟨5, _⟩ => ⟨S8x128, .f32⟩
  | .local _ .vmem, ⟨6, _⟩ => ⟨S128x128, .f32⟩
  | .local _ .vmem, ⟨7, _⟩ => ⟨S128, .f32⟩
  | .local _ .vmem, ⟨8, _⟩ => ⟨S128x64, .f32⟩
  | .local _ .vmem, ⟨9, _⟩ => ⟨S4096x64, .bf16⟩
  | .local _ .vmem, ⟨10, _⟩ => ⟨S4096x64, .bf16⟩
  | .local _ .vmem, ⟨11, _⟩ => ⟨S8192x42, .f32⟩
  | .local _ .vmem, ⟨12, _⟩ => ⟨S8192x42, .f32⟩
  | .local _ .vmem, ⟨13, _⟩ => ⟨S42x8, .f32⟩
  | .local _ .vmem, ⟨14, _⟩ => ⟨S8x64, .f32⟩
  | .local _ .vmem, ⟨15, _⟩ => ⟨S8192x64, .bf16⟩
  | .local _ .vmem, ⟨16, _⟩ => ⟨S8192x64, .bf16⟩
  | .local _ .vmem, ⟨17, _⟩ => ⟨S4096x128, .f32⟩
  | .local _ .vmem, ⟨18, _⟩ => ⟨S4096x128, .f32⟩
  | .local _ .vmem, ⟨19, _⟩ => ⟨S4096x64, .f32⟩
  | .local _ .vmem, ⟨20, _⟩ => ⟨S4096x64, .f32⟩
  | .local _ .vmem, ⟨21, _⟩ => ⟨S128x128, .f32⟩
  | .local _ .vmem, ⟨22, _⟩ => ⟨S128, .f32⟩
  | .local _ .vmem, ⟨23, _⟩ => ⟨S64x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S128x128, .f32⟩
  | .local _ .vmem, ⟨29, _⟩ => ⟨S128, .f32⟩
  | .local _ .vmem, ⟨30, _⟩ => ⟨S2x128x128, .f32⟩
  | .local _ .vmem, ⟨31, _⟩ => ⟨S2x128, .f32⟩
  | .local _ .vmem, ⟨32, _⟩ => ⟨S2x128x128, .f32⟩
  | .local _ .vmem, ⟨33, _⟩ => ⟨S2x128, .f32⟩
  | .local _ .vmem, ⟨34, _⟩ => ⟨S4096x128, .f32⟩
  | .local _ .vmem, ⟨35, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg12_0 : Ref sig .tc := ⟨.vmem, 31, rfl⟩
abbrev cc2_stg13_0 : Ref sig .tc := ⟨.vmem, 32, rfl⟩
abbrev cc2_stg14_0 : Ref sig .tc := ⟨.vmem, 33, rfl⟩
abbrev cc2_stg15_0 : Ref sig .tc := ⟨.vmem, 34, rfl⟩
abbrev cc2_stg15_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem12_0 : DmaSem sig := 31
abbrev cc2_sem13_0 : DmaSem sig := 32
abbrev cc2_sem14_0 : DmaSem sig := 33
abbrev cc2_sem15_0 : DmaSem sig := 34
abbrev cc2_sem15_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S42x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S2x128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S2x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S2x128x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S2x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S4096x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

class Facts₀ : Prop where
  inb_S4096x128_S4096x128_0_0 : ∀ a, (![0, 0] : Fin 2 → Nat) a + S4096x128.size a ≤ S4096x128.size a
  h_S4096x128 : 0 < S4096x128.numel
  inb_S4096x6_S4096x6_0_0 : ∀ a, (![0, 0] : Fin 2 → Nat) a + S4096x6.size a ≤ S4096x6.size a
  h_S4096x6 : 0 < S4096x6.numel
  bitsLt_bf16_f32 : FTy.bits .bf16 < FTy.bits .f32
  inb_S6x8_S6x8_0_0 : ∀ a, (![0, 0] : Fin 2 → Nat) a + S6x8.size a ≤ S6x8.size a
  h_S6x8 : 0 < S6x8.numel
  inb_S8x128_S8x128_0_0 : ∀ a, (![0, 0] : Fin 2 → Nat) a + S8x128.size a ≤ S8x128.size a
  h_S8x128 : 0 < S8x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  packedbf16_S4096x64_S4096x64_0_0 : (Rect.unit (s := S4096x64) ![0, 0] S4096x64.size inb_S4096x64_S4096x64_0_0).PackedRows (EltTy.packing .bf16)
  inb_S8192x42_S8192x42_0_0 : ∀ a, (![0, 0] : Fin 2 → Nat) a + S8192x42.size a ≤ S8192x42.size a
  h_S8192x42 : 0 < S8192x42.numel
  inb_S42x8_S42x8_0_0 : ∀ a, (![0, 0] : Fin 2 → Nat) a + S42x8.size a ≤ S42x8.size a
  h_S42x8 : 0 < S42x8.numel
  inb_S8x64_S8x64_0_0 : ∀ a, (![0, 0] : Fin 2 → Nat) a + S8x64.size a ≤ S8x64.size a
  h_S8x64 : 0 < S8x64.numel
  inb_S8192x64_S8192x64_0_0 : ∀ a, (![0, 0] : Fin 2 → Nat) a + S8192x64.size a ≤ S8192x64.size a
  h_S8192x64 : 0 < S8192x64.numel
  packedbf16_S8192x64_S8192x64_0_0 : (Rect.unit (s := S8192x64) ![0, 0] S8192x64.size inb_S8192x64_S8192x64_0_0).PackedRows (EltTy.packing .bf16)
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S262144x64 : S_.BroadcastsInDim S262144x64 (![] : Fin 0 → Fin S262144x64.rank)
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x128_S1x128_0_0 : ∀ a, (![0, 0] : Fin 2 → Nat) a + S1x128.size a ≤ S2x128.size a
  h_S1x128 : 0 < S1x128.numel
  shapeCasts_S1x128_S128 : S1x128.ShapeCasts S128
  inb_S2x128x128_S1x128x128_1_0_0 : ∀ a, (![1, 0, 0] : Fin 3 → Nat) a + S1x128x128.size a ≤ S2x128x128.size a
  inb_S2x128_S1x128_1_0 : ∀ a, (![1, 0] : Fin 2 → Nat) a + S1x128.size a ≤ S2x128.size a
  dot_S4096x6_S6x8_S4096x8_1_0_0_1_n_n_wf : DotDims.WF S4096x6 S6x8 S4096x8 [1] [0] [0] [1] [] []
  dot_S4096x8_S8x128_S4096x128_1_0_0_1_n_n_wf : DotDims.WF S4096x8 S8x128 S4096x128 [1] [0] [0] [1] [] []
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S8192x42_S42x8_S8192x8_1_0_0_1_n_n_wf : DotDims.WF S8192x42 S42x8 S8192x8 [1] [0] [0] [1] [] []
  dot_S8192x8_S8x64_S8192x64_1_0_0_1_n_n_wf : DotDims.WF S8192x8 S8x64 S8192x64 [1] [0] [0] [1] [] []
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x6.size a ≤ S262144x6.size a
  hwx0_1 : ∀ i : grid0.Coords, EltTy.bits .f32 = 32 ∨ (Rect.block (s := S262144x6) S4096x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x8.size a ≤ S6x8.size a
  hwx0_2 : ∀ i : grid0.Coords, EltTy.bits .f32 = 32 ∨ (Rect.block (s := S6x8) S6x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x64.size a ≤ S262144x64.size a
  hwx0_7 : ∀ i : grid0.Coords, EltTy.bits .bf16 = 32 ∨ (Rect.block (s := S262144x64) S4096x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x42.size a ≤ S2097152x42.size a
  hwx1_0 : ∀ i : grid1.Coords, EltTy.bits .f32 = 32 ∨ (Rect.block (s := S2097152x42) S8192x42.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S42x8.size a ≤ S42x8.size a
  hwx1_1 : ∀ i : grid1.Coords, EltTy.bits .f32 = 32 ∨ (Rect.block (s := S42x8) S42x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S8x64.size a
  hwx1_2 : ∀ i : grid1.Coords, EltTy.bits .f32 = 32 ∨ (Rect.block (s := S8x64) S8x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S2097152x64.size a
  hwx1_3 : ∀ i : grid1.Coords, EltTy.bits .bf16 = 32 ∨ (Rect.block (s := S2097152x64) S8192x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S262144x128.size a
  hwx2_0 : ∀ i : grid2.Coords, EltTy.bits .f32 = 32 ∨ (Rect.block (s := S262144x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S262144x64.size a
  hwx2_1 : ∀ i : grid2.Coords, EltTy.bits .f32 = 32 ∨ (Rect.block (s := S262144x64) S4096x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128.size a ≤ S128.size a
  hwx2_10 : ∀ i : grid2.Coords, EltTy.bits .f32 = 32 ∨ (Rect.block (s := S128) S128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S2x128x128.size a ≤ S2x128x128.size a
  hwx2_11 : ∀ i : grid2.Coords, EltTy.bits .f32 = 32 ∨ (Rect.block (s := S2x128x128) S2x128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S2x128.size a ≤ S2x128.size a
  hwx2_12 : ∀ i : grid2.Coords, EltTy.bits .f32 = 32 ∨ (Rect.block (s := S2x128) S2x128.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S2x128x128.size a ≤ S2x128x128.size a
  hwx2_13 : ∀ i : grid2.Coords, EltTy.bits .f32 = 32 ∨ (Rect.block (s := S2x128x128) S2x128x128.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S2x128.size a ≤ S2x128.size a
  hwx2_14 : ∀ i : grid2.Coords, EltTy.bits .f32 = 32 ∨ (Rect.block (s := S2x128) S2x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S4096x128.size a ≤ S262144x128.size a
  hwx2_15 : ∀ i : grid2.Coords, EltTy.bits .f32 = 32 ∨ (Rect.block (s := S262144x128) S4096x128.size (cc2_transform_15 i) (hinb2_15 i)).WholeWords (EltTy.packing .f32)

variable [Facts₀]

def dot_S4096x6_S6x8_S4096x8_1_0_0_1_n_n : DotDims S4096x6 S6x8 S4096x8 where
  lhsContracting := [1]
  rhsContracting := [0]
  lhsNonContracting := [0]
  rhsNonContracting := [1]
  lhsBatch := []
  rhsBatch := []
  wf := dot_S4096x6_S6x8_S4096x8_1_0_0_1_n_n_wf
def dot_S4096x8_S8x128_S4096x128_1_0_0_1_n_n : DotDims S4096x8 S8x128 S4096x128 where
  lhsContracting := [1]
  rhsContracting := [0]
  lhsNonContracting := [0]
  rhsNonContracting := [1]
  lhsBatch := []
  rhsBatch := []
  wf := dot_S4096x8_S8x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S8192x42_S42x8_S8192x8_1_0_0_1_n_n : DotDims S8192x42 S42x8 S8192x8 where
  lhsContracting := [1]
  rhsContracting := [0]
  lhsNonContracting := [0]
  rhsNonContracting := [1]
  lhsBatch := []
  rhsBatch := []
  wf := dot_S8192x42_S42x8_S8192x8_1_0_0_1_n_n_wf
def dot_S8192x8_S8x64_S8192x64_1_0_0_1_n_n : DotDims S8192x8 S8x64 S8192x64 where
  lhsContracting := [1]
  rhsContracting := [0]
  lhsNonContracting := [0]
  rhsNonContracting := [1]
  lhsBatch := []
  rhsBatch := []
  wf := dot_S8192x8_S8x64_S8192x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S6x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4096x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S8192x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S42x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S8x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S8192x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg18) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg19) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg20) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg21) S128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg22) S2x128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg23) S2x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg24) S2x128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg25) S2x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v15) S4096x128.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S1000x3 : Shape := ⟨2, ![1000, 3]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S2x128x128 : Shape := ⟨3, ![2, 128, 128]⟩
abbrev S2x128 : Shape := ⟨2, ![2, 128]⟩
abbrev S262144x8 : Shape := ⟨2, ![262144, 8]⟩
abbrev S2097152x8 : Shape := ⟨2, ![2097152, 8]⟩
abbrev S2097152x64 : Shape := ⟨2, ![2097152, 64]⟩
abbrev S1x128 : Shape := ⟨2, ![1, 128]⟩
abbrev S_ : Shape := ⟨0, ![]⟩
abbrev S262144x64 : Shape := ⟨2, ![262144, 64]⟩
abbrev S2097152x1 : Shape := ⟨2, ![2097152, 1]⟩
abbrev S1x128x128 : Shape := ⟨3, ![1, 128, 128]⟩

abbrev nBuf : Space → Nat
  | .hbm => 203
  | .vmem => 0
  | .smem => 0
  | _ => 0

abbrev hbmTy0_0 (i : Nat) : BufTy := match i % 128 with
  | 0 => ⟨S262144x128, .f32⟩
  | 1 => ⟨S262144x6, .f32⟩
  | 2 => ⟨S2097152x42, .f32⟩
  | 3 => ⟨S2097152, .i32⟩
  | 4 => ⟨S2097152, .i32⟩
  | 5 => ⟨S1000x3, .f32⟩
  | 6 => ⟨S6x8, .f32⟩
  | 7 => ⟨S8x128, .f32⟩
  | 8 => ⟨S42x8, .f32⟩
  | 9 => ⟨S8x64, .f32⟩
  | 10 => ⟨S128x128, .f32⟩
  | 11 => ⟨S128, .f32⟩
  | 12 => ⟨S128x128, .f32⟩
  | 13 => ⟨S128, .f32⟩
  | 14 => ⟨S128x64, .f32⟩
  | 15 => ⟨S64x128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S2x128x128, .f32⟩
  | 23 => ⟨S2x128, .f32⟩
  | 24 => ⟨S2x128x128, .f32⟩
  | 25 => ⟨S2x128, .f32⟩
  | 26 => ⟨S262144x8, .f32⟩
  | 27 => ⟨S262144x128, .f32⟩
  | 28 => ⟨S2097152x8, .f32⟩
  | 29 => ⟨S2097152x64, .f32⟩
  | 30 => ⟨S262144x128, .f32⟩
  | 31 => ⟨S1x128, .f32⟩
  | 32 => ⟨S262144x128, .f32⟩
  | 33 => ⟨S262144x128, .f32⟩
  | 34 => ⟨S262144x128, .f32⟩
  | 35 => ⟨S262144x128, .f32⟩
  | 36 => ⟨S_, .f32⟩
  | 37 => ⟨S262144x128, .f32⟩
  | 38 => ⟨S262144x128, .f32⟩
  | 39 => ⟨S_, .f32⟩
  | 40 => ⟨S262144x128, .f32⟩
  | 41 => ⟨S262144x128, .f32⟩
  | 42 => ⟨S262144x128, .f32⟩
  | 43 => ⟨S262144x128, .f32⟩
  | 44 => ⟨S1x128, .f32⟩
  | 45 => ⟨S262144x128, .f32⟩
  | 46 => ⟨S262144x128, .f32⟩
  | 47 => ⟨S262144x128, .f32⟩
  | 48 => ⟨S262144x128, .f32⟩
  | 49 => ⟨S_, .f32⟩
  | 50 => ⟨S262144x128, .f32⟩
  | 51 => ⟨S262144x128, .f32⟩
  | 52 => ⟨S_, .f32⟩
  | 53 => ⟨S262144x128, .f32⟩
  | 54 => ⟨S262144x128, .f32⟩
  | 55 => ⟨S262144x128, .f32⟩
  | 56 => ⟨S262144x128, .f32⟩
  | 57 => ⟨S262144x64, .f32⟩
  | 58 => ⟨S262144x64, .f32⟩
  | 59 => ⟨S262144x64, .f32⟩
  | 60 => ⟨S_, .f32⟩
  | 61 => ⟨S262144x64, .f32⟩
  | 62 => ⟨S262144x64, .f32⟩
  | 63 => ⟨S_, .f32⟩
  | 64 => ⟨S262144x64, .f32⟩
  | 65 => ⟨S262144x64, .f32⟩
  | 66 => ⟨S262144x64, .f32⟩
  | 67 => ⟨S_, .i32⟩
  | 68 => ⟨S2097152, .i32⟩
  | 69 => ⟨S2097152, .i1⟩
  | 70 => ⟨S_, .i32⟩
  | 71 => ⟨S2097152, .i32⟩
  | 72 => ⟨S2097152, .i32⟩
  | 73 => ⟨S2097152, .i32⟩
  | 74 => ⟨S2097152x1, .i32⟩
  | 75 => ⟨S2097152x64, .f32⟩
  | 76 => ⟨S2097152x64, .f32⟩
  | 77 => ⟨S_, .f32⟩
  | 78 => ⟨S262144x64, .f32⟩
  | 79 => ⟨S2097152x1, .i32⟩
  | 80 => ⟨S262144x64, .f32⟩
  | 81 => ⟨S262144x128, .f32⟩
  | 82 => ⟨S262144x128, .f32⟩
  | 83 => ⟨S262144x128, .f32⟩
  | 84 => ⟨S_, .f32⟩
  | 85 => ⟨S262144x128, .f32⟩
  | 86 => ⟨S262144x128, .f32⟩
  | 87 => ⟨S_, .f32⟩
  | 88 => ⟨S262144x128, .f32⟩
  | 89 => ⟨S262144x128, .f32⟩
  | 90 => ⟨S262144x128, .f32⟩
  | 91 => ⟨S262144x128, .f32⟩
  | 92 => ⟨S262144x128, .f32⟩
  | 93 => ⟨S1x128, .f32⟩
  | 94 => ⟨S262144x128, .f32⟩
  | 95 => ⟨S262144x128, .f32⟩
  | 96 => ⟨S262144x128, .f32⟩
  | 97 => ⟨S262144x128, .f32⟩
  | 98 => ⟨S_, .f32⟩
  | 99 => ⟨S262144x128, .f32⟩
  | 100 => ⟨S262144x128, .f32⟩
  | 101 => ⟨S_, .f32⟩
  | 102 => ⟨S262144x128, .f32⟩
  | 103 => ⟨S262144x128, .f32⟩
  | 104 => ⟨S262144x128, .f32⟩
  | 105 => ⟨S262144x128, .f32⟩
  | 106 => ⟨S1x128, .f32⟩
  | 107 => ⟨S262144x128, .f32⟩
  | 108 => ⟨S262144x128, .f32⟩
  | 109 => ⟨S262144x128, .f32⟩
  | 110 => ⟨S262144x128, .f32⟩
  | 111 => ⟨S_, .f32⟩
  | 112 => ⟨S262144x128, .f32⟩
  | 113 => ⟨S262144x128, .f32⟩
  | 114 => ⟨S_, .f32⟩
  | 115 => ⟨S262144x128, .f32⟩
  | 116 => ⟨S262144x128, .f32⟩
  | 117 => ⟨S262144x128, .f32⟩
  | 118 => ⟨S262144x128, .f32⟩
  | 119 => ⟨S262144x128, .f32⟩
  | 120 => ⟨S1x128, .f32⟩
  | 121 => ⟨S262144x128, .f32⟩
  | 122 => ⟨S262144x128, .f32⟩
  | 123 => ⟨S262144x128, .f32⟩
  | 124 => ⟨S262144x128, .f32⟩
  | 125 => ⟨S_, .f32⟩
  | 126 => ⟨S262144x128, .f32⟩
  | 127 => ⟨S262144x128, .f32⟩
  | _ => ⟨S262144x128, .f32⟩

abbrev hbmTy0_1 (i : Nat) : BufTy := match i % 128 with
  | 0 => ⟨S_, .f32⟩
  | 1 => ⟨S262144x128, .f32⟩
  | 2 => ⟨S262144x128, .f32⟩
  | 3 => ⟨S262144x128, .f32⟩
  | 4 => ⟨S262144x128, .f32⟩
  | 5 => ⟨S1x128x128, .f32⟩
  | 6 => ⟨S128x128, .f32⟩
  | 7 => ⟨S262144x128, .f32⟩
  | 8 => ⟨S1x128, .f32⟩
  | 9 => ⟨S128, .f32⟩
  | 10 => ⟨S1x128, .f32⟩
  | 11 => ⟨S262144x128, .f32⟩
  | 12 => ⟨S262144x128, .f32⟩
  | 13 => ⟨S262144x128, .f32⟩
  | 14 => ⟨S262144x128, .f32⟩
  | 15 => ⟨S_, .f32⟩
  | 16 => ⟨S262144x128, .f32⟩
  | 17 => ⟨S262144x128, .f32⟩
  | 18 => ⟨S_, .f32⟩
  | 19 => ⟨S262144x128, .f32⟩
  | 20 => ⟨S262144x128, .f32⟩
  | 21 => ⟨S262144x128, .f32⟩
  | 22 => ⟨S1x128x128, .f32⟩
  | 23 => ⟨S128x128, .f32⟩
  | 24 => ⟨S262144x128, .f32⟩
  | 25 => ⟨S1x128, .f32⟩
  | 26 => ⟨S128, .f32⟩
  | 27 => ⟨S1x128, .f32⟩
  | 28 => ⟨S262144x128, .f32⟩
  | 29 => ⟨S262144x128, .f32⟩
  | 30 => ⟨S262144x128, .f32⟩
  | 31 => ⟨S262144x128, .f32⟩
  | 32 => ⟨S_, .f32⟩
  | 33 => ⟨S262144x128, .f32⟩
  | 34 => ⟨S262144x128, .f32⟩
  | 35 => ⟨S_, .f32⟩
  | 36 => ⟨S262144x128, .f32⟩
  | 37 => ⟨S262144x128, .f32⟩
  | 38 => ⟨S262144x128, .f32⟩
  | 39 => ⟨S262144x128, .f32⟩
  | 40 => ⟨S1x128x128, .f32⟩
  | 41 => ⟨S128x128, .f32⟩
  | 42 => ⟨S262144x128, .f32⟩
  | 43 => ⟨S1x128, .f32⟩
  | 44 => ⟨S128, .f32⟩
  | 45 => ⟨S1x128, .f32⟩
  | 46 => ⟨S262144x128, .f32⟩
  | 47 => ⟨S262144x128, .f32⟩
  | 48 => ⟨S262144x128, .f32⟩
  | 49 => ⟨S262144x128, .f32⟩
  | 50 => ⟨S_, .f32⟩
  | 51 => ⟨S262144x128, .f32⟩
  | 52 => ⟨S262144x128, .f32⟩
  | 53 => ⟨S_, .f32⟩
  | 54 => ⟨S262144x128, .f32⟩
  | 55 => ⟨S262144x128, .f32⟩
  | 56 => ⟨S262144x128, .f32⟩
  | 57 => ⟨S1x128x128, .f32⟩
  | 58 => ⟨S128x128, .f32⟩
  | 59 => ⟨S262144x128, .f32⟩
  | 60 => ⟨S1x128, .f32⟩
  | 61 => ⟨S128, .f32⟩
  | 62 => ⟨S1x128, .f32⟩
  | 63 => ⟨S262144x128, .f32⟩
  | 64 => ⟨S262144x128, .f32⟩
  | 65 => ⟨S262144x128, .f32⟩
  | 66 => ⟨S262144x128, .f32⟩
  | 67 => ⟨S_, .f32⟩
  | 68 => ⟨S262144x128, .f32⟩
  | 69 => ⟨S262144x128, .f32⟩
  | 70 => ⟨S_, .f32⟩
  | 71 => ⟨S262144x128, .f32⟩
  | 72 => ⟨S262144x128, .f32⟩
  | 73 => ⟨S262144x128, .f32⟩
  | 74 => ⟨S262144x128, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v16 : Ref sig .tc := ⟨.hbm, 66, rfl⟩
abbrev main_c : Ref sig .tc := ⟨.hbm, 67, rfl⟩
abbrev main_v17 : Ref sig .tc := ⟨.hbm, 68, rfl⟩
abbrev main_v18 : Ref sig .tc := ⟨.hbm, 69, rfl⟩
abbrev main_c_0 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_call4_v0 : Ref sig .tc := ⟨.hbm, 96, rfl⟩
abbrev main_call4_v1 : Ref sig .tc := ⟨.hbm, 97, rfl⟩
abbrev main_call4_cst : Ref sig .tc := ⟨.hbm, 98, rfl⟩
abbrev main_call4_v2 : Ref sig .tc := ⟨.hbm, 99, rfl⟩
abbrev main_call4_v3 : Ref sig .tc := ⟨.hbm, 100, rfl⟩
abbrev main_call4_cst_0 : Ref sig .tc := ⟨.hbm, 101, rfl⟩
abbrev main_call4_v4 : Ref sig .tc := ⟨.hbm, 102, rfl⟩
abbrev main_call4_v5 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_call5_v0 : Ref sig .tc := ⟨.hbm, 109, rfl⟩
abbrev main_call5_v1 : Ref sig .tc := ⟨.hbm, 110, rfl⟩
abbrev main_call5_cst : Ref sig .tc := ⟨.hbm, 111, rfl⟩
abbrev main_call5_v2 : Ref sig .tc := ⟨.hbm, 112, rfl⟩
abbrev main_call5_v3 : Ref sig .tc := ⟨.hbm, 113, rfl⟩
abbrev main_call5_cst_0 : Ref sig .tc := ⟨.hbm, 114, rfl⟩
abbrev main_call5_v4 : Ref sig .tc := ⟨.hbm, 115, rfl⟩
abbrev main_call5_v5 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_call6_v0 : Ref sig .tc := ⟨.hbm, 123, rfl⟩
abbrev main_call6_v1 : Ref sig .tc := ⟨.hbm, 124, rfl⟩
abbrev main_call6_cst : Ref sig .tc := ⟨.hbm, 125, rfl⟩
abbrev main_call6_v2 : Ref sig .tc := ⟨.hbm, 126, rfl⟩
abbrev main_call6_v3 : Ref sig .tc := ⟨.hbm, 127, rfl⟩
abbrev main_call6_cst_0 : Ref sig .tc := ⟨.hbm, 128, rfl⟩
abbrev main_call6_v4 : Ref sig .tc := ⟨.hbm, 129, rfl⟩
abbrev main_call6_v5 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_call7_v0 : Ref sig .tc := ⟨.hbm, 141, rfl⟩
abbrev main_call7_v1 : Ref sig .tc := ⟨.hbm, 142, rfl⟩
abbrev main_call7_cst : Ref sig .tc := ⟨.hbm, 143, rfl⟩
abbrev main_call7_v2 : Ref sig .tc := ⟨.hbm, 144, rfl⟩
abbrev main_call7_v3 : Ref sig .tc := ⟨.hbm, 145, rfl⟩
abbrev main_call7_cst_0 : Ref sig .tc := ⟨.hbm, 146, rfl⟩
abbrev main_call7_v4 : Ref sig .tc := ⟨.hbm, 147, rfl⟩
abbrev main_call7_v5 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_call8_v0 : Ref sig .tc := ⟨.hbm, 158, rfl⟩
abbrev main_call8_v1 : Ref sig .tc := ⟨.hbm, 159, rfl⟩
abbrev main_call8_cst : Ref sig .tc := ⟨.hbm, 160, rfl⟩
abbrev main_call8_v2 : Ref sig .tc := ⟨.hbm, 161, rfl⟩
abbrev main_call8_v3 : Ref sig .tc := ⟨.hbm, 162, rfl⟩
abbrev main_call8_cst_0 : Ref sig .tc := ⟨.hbm, 163, rfl⟩
abbrev main_call8_v4 : Ref sig .tc := ⟨.hbm, 164, rfl⟩
abbrev main_call8_v5 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_call9_v0 : Ref sig .tc := ⟨.hbm, 176, rfl⟩
abbrev main_call9_v1 : Ref sig .tc := ⟨.hbm, 177, rfl⟩
abbrev main_call9_cst : Ref sig .tc := ⟨.hbm, 178, rfl⟩
abbrev main_call9_v2 : Ref sig .tc := ⟨.hbm, 179, rfl⟩
abbrev main_call9_v3 : Ref sig .tc := ⟨.hbm, 180, rfl⟩
abbrev main_call9_cst_0 : Ref sig .tc := ⟨.hbm, 181, rfl⟩
abbrev main_call9_v4 : Ref sig .tc := ⟨.hbm, 182, rfl⟩
abbrev main_call9_v5 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_call10_v0 : Ref sig .tc := ⟨.hbm, 193, rfl⟩
abbrev main_call10_v1 : Ref sig .tc := ⟨.hbm, 194, rfl⟩
abbrev main_call10_cst : Ref sig .tc := ⟨.hbm, 195, rfl⟩
abbrev main_call10_v2 : Ref sig .tc := ⟨.hbm, 196, rfl⟩
abbrev main_call10_v3 : Ref sig .tc := ⟨.hbm, 197, rfl⟩
abbrev main_call10_cst_0 : Ref sig .tc := ⟨.hbm, 198, rfl⟩
abbrev main_call10_v4 : Ref sig .tc := ⟨.hbm, 199, rfl⟩
abbrev main_call10_v5 : Ref sig .tc := ⟨.hbm, 200, rfl⟩
abbrev main_v84 : Ref sig .tc := ⟨.hbm, 201, rfl⟩
abbrev main_v85 : Ref sig .tc := ⟨.hbm, 202, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S_S262144x64 : S_.BroadcastsInDim S262144x64 (![] : Fin 0 → Fin S262144x64.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  dot_S262144x6_S6x8_S262144x8_1_0_0_1_n_n_wf : DotDims.WF S262144x6 S6x8 S262144x8 [1] [0] [0] [1] [] []
  dot_S262144x8_S8x128_S262144x128_1_0_0_1_n_n_wf : DotDims.WF S262144x8 S8x128 S262144x128 [1] [0] [0] [1] [] []
  dot_S2097152x42_S42x8_S2097152x8_1_0_0_1_n_n_wf : DotDims.WF S2097152x42 S42x8 S2097152x8 [1] [0] [0] [1] [] []
  dot_S2097152x8_S8x64_S2097152x64_1_0_0_1_n_n_wf : DotDims.WF S2097152x8 S8x64 S2097152x64 [1] [0] [0] [1] [] []
  dot_S262144x128_S128x128_S262144x128_1_0_0_1_n_n_wf : DotDims.WF S262144x128 S128x128 S262144x128 [1] [0] [0] [1] [] []
  dot_S262144x128_S128x64_S262144x64_1_0_0_1_n_n_wf : DotDims.WF S262144x128 S128x64 S262144x64 [1] [0] [0] [1] [] []
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  dot_S262144x64_S64x128_S262144x128_1_0_0_1_n_n_wf : DotDims.WF S262144x64 S64x128 S262144x128 [1] [0] [0] [1] [] []

variable [Facts₀]

def dot_S262144x6_S6x8_S262144x8_1_0_0_1_n_n : DotDims S262144x6 S6x8 S262144x8 where
  lhsContracting := [1]
  rhsContracting := [0]
  lhsNonContracting := [0]
  rhsNonContracting := [1]
  lhsBatch := []
  rhsBatch := []
  wf := dot_S262144x6_S6x8_S262144x8_1_0_0_1_n_n_wf
def dot_S262144x8_S8x128_S262144x128_1_0_0_1_n_n : DotDims S262144x8 S8x128 S262144x128 where
  lhsContracting := [1]
  rhsContracting := [0]
  lhsNonContracting := [0]
  rhsNonContracting := [1]
  lhsBatch := []
  rhsBatch := []
  wf := dot_S262144x8_S8x128_S262144x128_1_0_0_1_n_n_wf
def dot_S2097152x42_S42x8_S2097152x8_1_0_0_1_n_n : DotDims S2097152x42 S42x8 S2097152x8 where
  lhsContracting := [1]
  rhsContracting := [0]
  lhsNonContracting := [0]
  rhsNonContracting := [1]
  lhsBatch := []
  rhsBatch := []
  wf := dot_S2097152x42_S42x8_S2097152x8_1_0_0_1_n_n_wf
def dot_S2097152x8_S8x64_S2097152x64_1_0_0_1_n_n : DotDims S2097152x8 S8x64 S2097152x64 where
  lhsContracting := [1]
  rhsContracting := [0]
  lhsNonContracting := [0]
  rhsNonContracting := [1]
  lhsBatch := []
  rhsBatch := []
  wf := dot_S2097152x8_S8x64_S2097152x64_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S262144x64_S64x128_S262144x128_1_0_0_1_n_n : DotDims S262144x64 S64x128 S262144x128 where
  lhsContracting := [1]
  rhsContracting := [0]
  lhsNonContracting := [0]
  rhsNonContracting := [1]
  lhsBatch := []
  rhsBatch := []
  wf := dot_S262144x64_S64x128_S262144x128_1_0_0_1_n_n_wf

class Facts : Prop extends Facts₀ where

variable [Facts]
-- ==== Proof.KernelRun.lean ====
import proofs.«156858_j62457414418909_2_alg».proof.Proof.Gen.KernelIdeal.Frame

/-!
# The idealized kernel's run, with the value of its result

The program is three kernel regions with one stretch of host operations between the second and the third.
Its buffers' contents are followed from the launch memory through the four segments: `Gen.W1`, `Gen.W2` after the
first two regions, `Gen.W3` after the host stretch, `Gen.W4` after the last region. The run below says that from any
launch memory with every counter at zero, each weakly fair execution on the TensorCores terminates and leaves EVERY
buffer that outlives the regions at `Gen.W4`; read at the result buffer this names the program's value, read at an
argument it gives the argument back as launched.
-/

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory holds on core `c`: every buffer that outlives the regions is at the last boundary's contents. -/
def AtEnd (c : Dev nD) (s : MemSt nD τ sig (Elt F)) : Prop :=
  ∀ b ∈ Pipeline.ucRefs τ sig, s.mem (((c : Thread nD τ)).1, b) = Gen.W4 m ρ c b

set_option backward.isDefEq.respectTransparency.types false in
/-- Every weakly fair execution of the program terminates, and at its end every core's surviving buffers hold
    `Gen.W4`: the four segments run in order from the launch memory, each entered at the contents the previous one
    left; nothing is owed between cores, and the last thread state is read against the final memory. -/
theorem run_all : θ_run defs (onTc (τ := τ) (main (F := F))) ⟨m, fun _ => 0, ρ⟩ (fun r => ∀ c : Dev nD, AtEnd m ρ c r.2) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      have hemp : (BI.emp : sProp 𝕄) ⊢ bigSep Finset.univ (fun _ : Dev nD => (BI.emp : sProp 𝕄)) := by
        rw [BI.bigSep_emp_const]
      iintro Hu
      imodintro
      isplitl [Hu]
      · iapply hown; iexact Hu
      · iapply hemp; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]
      · iexists _; iexact Hreg
      · iexists ∅; iexact Howes)
    (QY := AtEnd m ρ)
    (hfin := fun c s' => by
      unfold AtEnd
      iintro ⟨⟨Hheld, -⟩, HSI⟩
      unfold StableHlo.held
      imodintro
      iapply (pointsTo_read_all (Pipeline.ucRefs τ sig) (fun b => (((c : Thread nD τ)).1, b)) (W4 m ρ c) s')
      isplitl [Hheld] <;> iassumption)
    (hQ := fun s h => h)

/-- The run with its result named: the result buffer `main_v15` ends at `Gen.W4` there, and each of the 26 arguments
    ends as launched (no segment writes an argument: `Gen.W4_main_arg…`). -/
theorem run : θ_run defs (onTc (τ := τ) (main (F := F))) ⟨m, fun _ => 0, ρ⟩ (fun r => ∀ c : Dev nD,
      r.2.mem ((c.tc : Thread nD τ).loc main_v15) = Gen.W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨h c _ (mem_uc main_v15 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c),
     (h c _ (mem_uc main_arg17 (by decide))).trans (W4_main_arg17 m ρ c),
     (h c _ (mem_uc main_arg18 (by decide))).trans (W4_main_arg18 m ρ c),
     (h c _ (mem_uc main_arg19 (by decide))).trans (W4_main_arg19 m ρ c),
     (h c _ (mem_uc main_arg20 (by decide))).trans (W4_main_arg20 m ρ c),
     (h c _ (mem_uc main_arg21 (by decide))).trans (W4_main_arg21 m ρ c),
     (h c _ (mem_uc main_arg22 (by decide))).trans (W4_main_arg22 m ρ c),
     (h c _ (mem_uc main_arg23 (by decide))).trans (W4_main_arg23 m ρ c),
     (h c _ (mem_uc main_arg24 (by decide))).trans (W4_main_arg24 m ρ c),
     (h c _ (mem_uc main_arg25 (by decide))).trans (W4_main_arg25 m ρ c)⟩)
    (run_all m ρ)

end Cert.KernelIdeal.RunValue

end
-- ==== Proof.HostMiddle.lean ====
import proofs.«156858_j62457414418909_2_alg».proof.Proof.Gen.KernelIdeal.Frame
import proofs.«156858_j62457414418909_2_alg».proof.Proof.ReadP
import Idealize.ShloMosaic.Lib.ValueIdx

/-!
# The host stretch between the second and the third kernel

Between the triplet kernel and the final kernel the program runs sixteen host operations. They wrap the negative
entries of the gather index `main_arg3` (an entry `i < 0` becomes `i + 262144`), gather the rows of the edge
kernel's output at the wrapped index, widen both kernels' outputs from bf16 to f32, multiply them entrywise, and
scatter-add the products' rows into a zero array at the index `main_arg4`. The result, `%14`, is the array the final
kernel reads beside `main_arg0`.

This module names that array as ONE function `middle` of the two kernels' output arrays and the two index arrays,
reads it off the fold of the host operations, walks every array the regions read back to the launch memory, and shows
that at the extended reals `middle` is the reference's `%27`: there a change of format is the identity and the
product commutes.
-/

set_option maxRecDepth 16384

noncomputable section

namespace Cert.KernelIdeal.Middle

open Idealize.ShloMosaic Idealize.ShloMosaic.TcCoe Idealize.ShloMosaic.StableHlo
open Cert.KernelIdeal Cert.KernelIdeal.Gen

variable {F : FTy → Type} [FloatOps F]

/-! ## The stretch as one function -/

/-- The gather index with its negative entries wrapped: `i` where `0 ≤ i`, `i + 262144` where `i < 0`. -/
def wrap (i3 : Vec F S2097152 .i32) : Vec F S2097152 .i32 :=
  select (cmpi .slt i3 (broadcastInDim S2097152 ![] bcast_S_S2097152 (constantI S_ 32 0#32)))
    (addi i3 (broadcastInDim S2097152 ![] bcast_S_S2097152 (constantI S_ 32 262144#32)))
    i3

/-- `%14`: the rows of `A0` gathered at the wrapped `i3`, times `A1` entrywise (both widened to f32), their rows
    added into a zero array at the rows `i4` names. -/
def middle (A0 : Vec F S262144x64 .bf16) (A1 : Vec F S2097152x64 .bf16) (i3 i4 : Vec F S2097152 .i32) :
    Vec F S262144x64 .f32 :=
  Host.scatterAdd (F := F) scatter_S262144x64_S2097152x1_S2097152x64_1_0_0_1
    (broadcastInDim S262144x64 ![] bcast_S_S262144x64 (constant (F := F) S_ .f32 0x00000000#32))
    (broadcastInDim S2097152x1 ![0] bcast_S2097152_S2097152x1_0 i4)
    (mulf (extf .f32 A1 bitsLt_bf16_f32)
      (extf .f32
        (Host.gather gather_S262144x64_S2097152x1_S2097152x64_1_0_n_n_0_1_164 A0
          (broadcastInDim S2097152x1 ![0] bcast_S2097152_S2097152x1_0 (wrap (F := F) i3)))
        bitsLt_bf16_f32))

variable (m : (ℓ : Loc nD τ sig) → Buf (Elt F) ℓ) (ρ : Dev nD → PrngReg)

/-! ## What the host stretch writes -/

/-- The sixteen buffers the host stretch writes, one per operation, in order. -/
def hostWrites : List (Ref sig .tc) :=
  [main_c, main_v2, main_v3, main_c_0, main_v4, main_v5, main_v6, main_v7, main_v8, main_v9, main_v10, main_v11,
   main_cst, main_v12, main_v13, main_v14]

theorem single_sub {y : Ref sig .tc} (h : y ∈ hostWrites) :
    ({Proc.devRef .tc y} : Finset (DevRef τ sig)) ⊆ (hostWrites.map (Proc.devRef (τ := τ) .tc)).toFinset :=
  Finset.singleton_subset_iff.mpr (List.mem_toFinset.mpr (List.mem_map_of_mem h))

/-- Each operation of the stretch writes one buffer of that list. -/
theorem hostOps2_writes : (hostOps2 : List (HloOp τ sig (Elt F))).Forall fun op =>
    op.writes ⊆ (hostWrites.map (Proc.devRef (τ := τ) .tc)).toFinset := by
  simp only [hostOps2, List.Forall, nullary_writes, unary_writes, binary_writes, ternary_writes]
  repeat' apply And.intro
  all_goals exact single_sub (by decide)

/-- A buffer outside that list is after the stretch what it was before. -/
theorem V3_of_unwritten (c : Dev nD) (b : Ref sig .tc) (hb : b ∉ hostWrites) :
    Gen.V3 m ρ c b = Gen.W2 m ρ c (Proc.devRef .tc b) :=
  after_of_writes_sub hostOps2 _ hostOps2_writes hb

/-! ## The program's result is the last region's sixteenth array -/

theorem result_arr (c : Dev nD) :
    Gen.W4 m ρ c (Proc.devRef .tc main_v15) = (Gen.dat2 (Gen.V3 m ρ) c).arrAt 15 cfg2.N :=
  Gen.W4_arr m ρ c 15

/-! ## The arguments each region reads, back at the launch memory

Region 0 is entered at the launch memory itself. Region 1's arguments are no array of region 0, so region 0's exit
leaves them alone. Region 2's arguments are not written by the host stretch and are no array of region 1; of region 0
only `main_arg0` is an array, an INPUT one, which the region leaves as it found it. -/

theorem V0_arg0 (c : Dev nD) : Gen.V0 m ρ c main_arg0 = m ((c.tc : Thread nD τ).loc main_arg0) := rfl
theorem V0_arg1 (c : Dev nD) : Gen.V0 m ρ c main_arg1 = m ((c.tc : Thread nD τ).loc main_arg1) := rfl
theorem V0_arg6 (c : Dev nD) : Gen.V0 m ρ c main_arg6 = m ((c.tc : Thread nD τ).loc main_arg6) := rfl
theorem V0_arg7 (c : Dev nD) : Gen.V0 m ρ c main_arg7 = m ((c.tc : Thread nD τ).loc main_arg7) := rfl
theorem V0_arg12 (c : Dev nD) : Gen.V0 m ρ c main_arg12 = m ((c.tc : Thread nD τ).loc main_arg12) := rfl
theorem V0_arg13 (c : Dev nD) : Gen.V0 m ρ c main_arg13 = m ((c.tc : Thread nD τ).loc main_arg13) := rfl
theorem V0_arg14 (c : Dev nD) : Gen.V0 m ρ c main_arg14 = m ((c.tc : Thread nD τ).loc main_arg14) := rfl

theorem V1_arg2 (c : Dev nD) : Gen.V1 m ρ c main_arg2 = m ((c.tc : Thread nD τ).loc main_arg2) :=
  Gen.W1_of_ne m ρ c main_arg2 (by decide)
theorem V1_arg8 (c : Dev nD) : Gen.V1 m ρ c main_arg8 = m ((c.tc : Thread nD τ).loc main_arg8) :=
  Gen.W1_of_ne m ρ c main_arg8 (by decide)
theorem V1_arg9 (c : Dev nD) : Gen.V1 m ρ c main_arg9 = m ((c.tc : Thread nD τ).loc main_arg9) :=
  Gen.W1_of_ne m ρ c main_arg9 (by decide)

/-- A buffer the stretch does not write and that is no array of the first two regions is, when the last region is
    entered, as launched. -/
theorem V3_of_untouched (c : Dev nD) (b : Ref sig .tc) (hh : b ∉ hostWrites)
    (h1 : ∀ w, Pipeline.arrRef spec1 w ≠ b) (h0 : ∀ w, Pipeline.arrRef spec0 w ≠ b) :
    Gen.V3 m ρ c b = m ((c.tc : Thread nD τ).loc b) :=
  ((V3_of_unwritten m ρ c b hh).trans (Gen.W2_of_ne m ρ c b h1)).trans (Gen.W1_of_ne m ρ c b h0)

theorem V3_arg0 (c : Dev nD) : Gen.V3 m ρ c main_arg0 = m ((c.tc : Thread nD τ).loc main_arg0) :=
  ((V3_of_unwritten m ρ c main_arg0 (by decide)).trans (Gen.W2_of_ne m ρ c main_arg0 (by decide))).trans
    ((Gen.W1_arr m ρ c 0).trans (((dat0 (V0 m ρ) c).arrAt_in 0 rfl _).trans (A_eq0 (V0 m ρ) c 0)))
theorem V3_arg10 (c : Dev nD) : Gen.V3 m ρ c main_arg10 = m ((c.tc : Thread nD τ).loc main_arg10) :=
  V3_of_untouched m ρ c main_arg10 (by decide) (by decide) (by decide)
theorem V3_arg11 (c : Dev nD) : Gen.V3 m ρ c main_arg11 = m ((c.tc : Thread nD τ).loc main_arg11) :=
  V3_of_untouched m ρ c main_arg11 (by decide) (by decide) (by decide)
theorem V3_arg15 (c : Dev nD) : Gen.V3 m ρ c main_arg15 = m ((c.tc : Thread nD τ).loc main_arg15) :=
  V3_of_untouched m ρ c main_arg15 (by decide) (by decide) (by decide)
theorem V3_arg16 (c : Dev nD) : Gen.V3 m ρ c main_arg16 = m ((c.tc : Thread nD τ).loc main_arg16) :=
  V3_of_untouched m ρ c main_arg16 (by decide) (by decide) (by decide)
theorem V3_arg17 (c : Dev nD) : Gen.V3 m ρ c main_arg17 = m ((c.tc : Thread nD τ).loc main_arg17) :=
  V3_of_untouched m ρ c main_arg17 (by decide) (by decide) (by decide)
theorem V3_arg18 (c : Dev nD) : Gen.V3 m ρ c main_arg18 = m ((c.tc : Thread nD τ).loc main_arg18) :=
  V3_of_untouched m ρ c main_arg18 (by decide) (by decide) (by decide)
theorem V3_arg19 (c : Dev nD) : Gen.V3 m ρ c main_arg19 = m ((c.tc : Thread nD τ).loc main_arg19) :=
  V3_of_untouched m ρ c main_arg19 (by decide) (by decide) (by decide)
theorem V3_arg20 (c : Dev nD) : Gen.V3 m ρ c main_arg20 = m ((c.tc : Thread nD τ).loc main_arg20) :=
  V3_of_untouched m ρ c main_arg20 (by decide) (by decide) (by decide)
theorem V3_arg21 (c : Dev nD) : Gen.V3 m ρ c main_arg21 = m ((c.tc : Thread nD τ).loc main_arg21) :=
  V3_of_untouched m ρ c main_arg21 (by decide) (by decide) (by decide)
theorem V3_arg22 (c : Dev nD) : Gen.V3 m ρ c main_arg22 = m ((c.tc : Thread nD τ).loc main_arg22) :=
  V3_of_untouched m ρ c main_arg22 (by decide) (by decide) (by decide)
theorem V3_arg23 (c : Dev nD) : Gen.V3 m ρ c main_arg23 = m ((c.tc : Thread nD τ).loc main_arg23) :=
  V3_of_untouched m ρ c main_arg23 (by decide) (by decide) (by decide)
theorem V3_arg24 (c : Dev nD) : Gen.V3 m ρ c main_arg24 = m ((c.tc : Thread nD τ).loc main_arg24) :=
  V3_of_untouched m ρ c main_arg24 (by decide) (by decide) (by decide)
theorem V3_arg25 (c : Dev nD) : Gen.V3 m ρ c main_arg25 = m ((c.tc : Thread nD τ).loc main_arg25) :=
  V3_of_untouched m ρ c main_arg25 (by decide) (by decide) (by decide)

/-! ## `%14` when the last region is entered -/

/-- The two index arrays are arguments no segment before the last region touches. -/
theorem W2_arg3 (c : Dev nD) : Gen.W2 m ρ c (Proc.devRef .tc main_arg3) = m ((c.tc : Thread nD τ).loc main_arg3) :=
  (Gen.W2_of_ne m ρ c main_arg3 (by decide)).trans (Gen.W1_of_ne m ρ c main_arg3 (by decide))
theorem W2_arg4 (c : Dev nD) : Gen.W2 m ρ c (Proc.devRef .tc main_arg4) = m ((c.tc : Thread nD τ).loc main_arg4) :=
  (Gen.W2_of_ne m ρ c main_arg4 (by decide)).trans (Gen.W1_of_ne m ρ c main_arg4 (by decide))
/-- The edge kernel's output is region 0's eighth array, which region 1 does not touch … -/
theorem W2_v0 (c : Dev nD) : Gen.W2 m ρ c (Proc.devRef .tc main_v0) = (Gen.dat0 (Gen.V0 m ρ) c).arrAt 7 cfg0.N :=
  (Gen.W2_of_ne m ρ c main_v0 (by decide)).trans (Gen.W1_arr m ρ c 7)
/-- … and the triplet kernel's output is region 1's fourth array. -/
theorem W2_v1 (c : Dev nD) : Gen.W2 m ρ c (Proc.devRef .tc main_v1) = (Gen.dat1 (Gen.V1 m ρ) c).arrAt 3 cfg1.N :=
  Gen.W2_arr m ρ c 3

/-- The fold of the sixteen operations, read at `%14`, is `middle` of the four buffers it reads. -/
theorem V3_v14_fold (c : Dev nD) : (Gen.V3 m ρ c main_v14 : S262144x64.Idx → _)
    = middle (Gen.W2 m ρ c (Proc.devRef .tc main_v0)) (Gen.W2 m ρ c (Proc.devRef .tc main_v1))
        (Gen.W2 m ρ c (Proc.devRef .tc main_arg3)) (Gen.W2 m ρ c (Proc.devRef .tc main_arg4)) := by
  dsimp only [Gen.V3, Gen.W3, Gen.hostOps2]
  after_results_simp
  rfl

theorem V3_v14 (c : Dev nD) : Gen.V3 m ρ c main_v14
    = middle ((Gen.dat0 (Gen.V0 m ρ) c).arrAt 7 cfg0.N) ((Gen.dat1 (Gen.V1 m ρ) c).arrAt 3 cfg1.N)
        (m ((c.tc : Thread nD τ).loc main_arg3)) (m ((c.tc : Thread nD τ).loc main_arg4)) := by
  rw [V3_v14_fold, W2_v0, W2_v1, W2_arg3, W2_arg4]

/-! ## At the extended reals the stretch is the reference's `%27`

The reference gathers the same rows (of its own f32 edge array) at the same wrapped index, multiplies by its triplet
array with the factors in the other order, and scatter-adds into the same zero array at the same rows. Over the
extended reals a widening is the identity and the product commutes, so the two update arrays agree entry by entry. -/

section Reference

open Cert.ReferenceIdeal.ReadP

/-- The kernel side's update array and the reference's are equal: entry by entry, `a * g = g * a`. -/
theorem updates_eq (A0 : FVec Ideal S262144x64 .f32) (A1 : FVec Ideal S2097152x64 .f32) (i3 : Vec Ideal S2097152 .i32) :
    mulf (extf .f32 (φ := .bf16) A1 bitsLt_bf16_f32)
        (extf .f32 (φ := .bf16)
          (Host.gather gather_S262144x64_S2097152x1_S2097152x64_1_0_n_n_0_1_164 A0
            (broadcastInDim S2097152x1 ![0] bcast_S2097152_S2097152x1_0 (wrap (F := Ideal) i3)))
          bitsLt_bf16_f32)
      = mulf (φ := .f32)
          (Host.gather gather_S262144x64_S2097152x1_S2097152x64_1_0_n_n_0_1_164 A0
            (broadcastInDim S2097152x1 ![0] bcast_S2097152_S2097152x1_0 (wrap (F := Ideal) i3)))
          A1 := by
  funext i
  rw [ValueIdx.mulf_apply, ValueIdx.mulf_apply, ValueIdx.extf_apply, ValueIdx.extf_apply]
  exact mul_comm _ _

theorem middle_ref
    (x0 : (⟨Cert.ReferenceIdeal.S262144x128, .f32⟩ : BufTy).Contents (Elt Ideal)) (x1 : (⟨Cert.ReferenceIdeal.S262144x6, .f32⟩ : BufTy).Contents (Elt Ideal))
    (x2 : (⟨Cert.ReferenceIdeal.S2097152x42, .f32⟩ : BufTy).Contents (Elt Ideal)) (x3 x4 : (⟨Cert.ReferenceIdeal.S2097152, .i32⟩ : BufTy).Contents (Elt Ideal))
    (x6 : (⟨Cert.ReferenceIdeal.S6x8, .f32⟩ : BufTy).Contents (Elt Ideal)) (x7 : (⟨Cert.ReferenceIdeal.S8x128, .f32⟩ : BufTy).Contents (Elt Ideal))
    (x8 : (⟨Cert.ReferenceIdeal.S42x8, .f32⟩ : BufTy).Contents (Elt Ideal)) (x9 : (⟨Cert.ReferenceIdeal.S8x64, .f32⟩ : BufTy).Contents (Elt Ideal))
    (x12 : (⟨Cert.ReferenceIdeal.S128x128, .f32⟩ : BufTy).Contents (Elt Ideal)) (x13 : (⟨Cert.ReferenceIdeal.S128, .f32⟩ : BufTy).Contents (Elt Ideal))
    (x14 : (⟨Cert.ReferenceIdeal.S128x64, .f32⟩ : BufTy).Contents (Elt Ideal)) :
    middle (F := Ideal) (val_main_v16 (F := Ideal) x0 x1 x6 x7 x12 x13 x14) (val_main_v3 (F := Ideal) x2 x8 x9) x3 x4
      = val_main_v27 (F := Ideal) x0 x1 x2 x3 x4 x6 x7 x8 x9 x12 x13 x14 := by
  unfold middle
  rw [updates_eq]
  rfl

end Reference

end Cert.KernelIdeal.Middle

end
-- ==== Proof.Rows.lean ====
/-
  Row blocks of a matrix.

  A grid point `t` of a row-blocked operand holds rows `t·B, …, t·B + B − 1` of an `M × n` array (`B` the block
  height, `(t + 1)·B ≤ M`). `row` is the array row of a block row, `rowBlock` the block as an array of its own.
  Every kernel of this certificate computes each output row from the same row of its row-blocked operands and from
  whole weight matrices, so "the block's entry (p, q) is the array's entry (t·B + p, q)" is the one relation carried
  through its layers.
  `slab i` and `srow i` read matrix `i` of a stack of two `128 × 128` matrices and row `i` of a `2 × 128` matrix,
  keeping the leading axis as a unit axis (the form in which a kernel loads one layer of stacked weights).
-/
import Idealize.ShloMosaic.PureOps.Ideal
import Idealize.ShloMosaic.Lib.ValueIdx

noncomputable section

namespace Cert.Rows

open Idealize.ShloMosaic Idealize.ShloMosaic.ValueIdx

/-- Array row `t·B + p` of block row `p` of block `t`. -/
def row (B M t : Nat) (ht : (t + 1) * B ≤ M) (p : Fin B) : Fin M :=
  ⟨t * B + p.val, by have hp := p.isLt; have e : (t + 1) * B = t * B + B := Nat.succ_mul t B; omega⟩

theorem row_val (B M t : Nat) (ht : (t + 1) * B ≤ M) (p : Fin B) : (row B M t ht p).val = t * B + p.val := rfl

/-- Rows `t·B, …, t·B + B − 1` of an `M × n` array, as a `B × n` array. -/
def rowBlock (B M n t : Nat) (ht : (t + 1) * B ≤ M) (X : (⟨2, ![M, n]⟩ : Shape).Idx → EReal) :
    (⟨2, ![B, n]⟩ : Shape).Idx → EReal :=
  fun j => X (ix2 (row B M t ht (j 0)) (j 1))

theorem rowBlock_apply (B M n t : Nat) (ht : (t + 1) * B ≤ M) (X : (⟨2, ![M, n]⟩ : Shape).Idx → EReal)
    (p : Fin B) (q : Fin n) : rowBlock B M n t ht X (ix2 p q) = X (ix2 (row B M t ht p) q) := rfl

/-- Matrix `i` of a stack of two `128 × 128` matrices, the leading axis kept as a unit axis. -/
def slab (i : Fin 2) (X : (⟨3, ![2, 128, 128]⟩ : Shape).Idx → EReal) : (⟨3, ![1, 128, 128]⟩ : Shape).Idx → EReal :=
  fun j => X (ix3 i (j 1) (j 2))

theorem slab_apply (i : Fin 2) (X : (⟨3, ![2, 128, 128]⟩ : Shape).Idx → EReal) (z : Fin 1) (a b : Fin 128) :
    slab i X (ix3 z a b) = X (ix3 i a b) := rfl

/-- Row `i` of a `2 × 128` matrix, as a `1 × 128` matrix. -/
def srow (i : Fin 2) (X : (⟨2, ![2, 128]⟩ : Shape).Idx → EReal) : (⟨2, ![1, 128]⟩ : Shape).Idx → EReal :=
  fun j => X (ix2 i (j 1))

theorem srow_apply (i : Fin 2) (X : (⟨2, ![2, 128]⟩ : Shape).Idx → EReal) (z : Fin 1) (b : Fin 128) :
    srow i X (ix2 z b) = X (ix2 i b) := rfl

end Cert.Rows

end
-- ==== Proof.Blocks0.lean ====
/-
  The edge kernel's output array, from its blocks.

  The kernel runs over 64 grid points; point `t` reads rows `4096·t, …, 4096·t + 4095` of the edge embeddings and of
  the radial basis, and five whole weight arrays, and writes rows `4096·t, …` of the down-projected messages. The 64
  row blocks tile the output, so if the value stored at a point is, entry by entry, a whole-array function `G` of the
  operands read at the block's rows, the output array ends holding `G` of the operands as the kernel found them.
-/
import proofs.«156858_j62457414418909_2_alg».proof.Proof.Gen.KernelIdeal.Frame
import proofs.«156858_j62457414418909_2_alg».proof.Proof.Rows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Rows

variable (V : (c : Dev nD) → (b : Ref sig .tc) → Buf (Elt Ideal) ((c : Thread nD τ).loc b))

theorem zeros2₀ : (![0, 0] : Fin 2 → Nat) = fun _ => 0 := funext fun a => by fin_cases a <;> rfl
theorem zeros1₀ : (![0] : Fin 1 → Nat) = fun _ => 0 := funext fun a => by fin_cases a; rfl

/-! The printed index maps, over the grid: a row-blocked window is at block row `t`, a weight at its one block. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 1) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)

theorem blk0_le (t : Fin cfg0.N) : (t.val + 1) * 4096 ≤ 262144 := by
  have h := t.isLt
  have e : cfg0.N = 64 := N_0
  omega

/-- The edge-embedding window's block at point `t` is rows `4096·t, …` of its array. -/
theorem iblk0_0 (c : Dev nD) (t : Fin cfg0.N) :
    (iblk0 V c 0 t : S4096x128.Idx → EReal) = rowBlock 4096 262144 128 t.val (blk0_le t) (V c main_arg0) := by
  obtain ⟨e0, e1⟩ := idx0_0 t
  funext x
  unfold iblk0
  rw [View.read_apply]
  show V c main_arg0 _ = V c main_arg0 _
  refine congrArg _ (funext fun a => Fin.ext ?_)
  match a with
  | ⟨0, _⟩ => show win0_0.index t (0 : Fin 2) * 4096 + 1 * (x 0).val = t.val * 4096 + (x 0).val; rw [e0]; omega
  | ⟨1, _⟩ => show win0_0.index t (1 : Fin 2) * 128 + 1 * (x 1).val = (x 1).val; rw [e1]; omega

/-- The radial-basis window's block at point `t` is rows `4096·t, …` of its array. -/
theorem iblk0_1 (c : Dev nD) (t : Fin cfg0.N) :
    (iblk0 V c 1 t : S4096x6.Idx → EReal) = rowBlock 4096 262144 6 t.val (blk0_le t) (V c main_arg1) := by
  obtain ⟨e0, e1⟩ := idx0_1 t
  funext x
  unfold iblk0
  rw [View.read_apply]
  show V c main_arg1 _ = V c main_arg1 _
  refine congrArg _ (funext fun a => Fin.ext ?_)
  match a with
  | ⟨0, _⟩ => show win0_1.index t (0 : Fin 2) * 4096 + 1 * (x 0).val = t.val * 4096 + (x 0).val; rw [e0]; omega
  | ⟨1, _⟩ => show win0_1.index t (1 : Fin 2) * 6 + 1 * (x 1).val = (x 1).val; rw [e1]; omega

/-- The first radial weight's one block is its whole array. -/
theorem iblk0_2 (c : Dev nD) (t : Fin cfg0.N) : (iblk0 V c 2 t : S6x8.Idx → EReal) = V c main_arg6 := by
  obtain ⟨e0, e1⟩ := idx0_2 t
  funext x
  unfold iblk0
  rw [View.read_apply]
  show V c main_arg6 _ = V c main_arg6 _
  refine congrArg _ (funext fun a => Fin.ext ?_)
  match a with
  | ⟨0, _⟩ => show win0_2.index t (0 : Fin 2) * 6 + 1 * (x 0).val = (x 0).val; rw [e0]; omega
  | ⟨1, _⟩ => show win0_2.index t (1 : Fin 2) * 8 + 1 * (x 1).val = (x 1).val; rw [e1]; omega

/-- The second radial weight's one block is its whole array. -/
theorem iblk0_3 (c : Dev nD) (t : Fin cfg0.N) : (iblk0 V c 3 t : S8x128.Idx → EReal) = V c main_arg7 := by
  obtain ⟨e0, e1⟩ := idx0_3 t
  funext x
  unfold iblk0
  rw [View.read_apply]
  show V c main_arg7 _ = V c main_arg7 _
  refine congrArg _ (funext fun a => Fin.ext ?_)
  match a with
  | ⟨0, _⟩ => show win0_3.index t (0 : Fin 2) * 8 + 1 * (x 0).val = (x 0).val; rw [e0]; omega
  | ⟨1, _⟩ => show win0_3.index t (1 : Fin 2) * 128 + 1 * (x 1).val = (x 1).val; rw [e1]; omega

/-- The dense weight's one block is its whole array. -/
theorem iblk0_4 (c : Dev nD) (t : Fin cfg0.N) : (iblk0 V c 4 t : S128x128.Idx → EReal) = V c main_arg12 := by
  obtain ⟨e0, e1⟩ := idx0_4 t
  funext x
  unfold iblk0
  rw [View.read_apply]
  show V c main_arg12 _ = V c main_arg12 _
  refine congrArg _ (funext fun a => Fin.ext ?_)
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- The dense bias's one block is its whole array. -/
theorem iblk0_5 (c : Dev nD) (t : Fin cfg0.N) : (iblk0 V c 5 t : S128.Idx → EReal) = V c main_arg13 := by
  have e0 := idx0_5 t
  funext x
  unfold iblk0
  rw [View.read_apply]
  show V c main_arg13 _ = V c main_arg13 _
  refine congrArg _ (funext fun a => Fin.ext ?_)
  match a with
  | ⟨0, _⟩ => show win0_5.index t (0 : Fin 1) * 128 + 1 * (x 0).val = (x 0).val; rw [e0]; omega

/-- The down-projection weight's one block is its whole array. -/
theorem iblk0_6 (c : Dev nD) (t : Fin cfg0.N) : (iblk0 V c 6 t : S128x64.Idx → EReal) = V c main_arg14 := by
  obtain ⟨e0, e1⟩ := idx0_6 t
  funext x
  unfold iblk0
  rw [View.read_apply]
  show V c main_arg14 _ = V c main_arg14 _
  refine congrArg _ (funext fun a => Fin.ext ?_)
  match a with
  | ⟨0, _⟩ => show win0_6.index t (0 : Fin 2) * 128 + 1 * (x 0).val = (x 0).val; rw [e0]; omega
  | ⟨1, _⟩ => show win0_6.index t (1 : Fin 2) * 64 + 1 * (x 1).val = (x 1).val; rw [e1]; omega

/-- The output window's block at point `t` sits at rows `4096·t, …` of the output array. -/
theorem emb0_7 (t : Fin cfg0.N) (j : S4096x64.Idx) :
    ((cfg0.win 7).blk t).view.emb j = ix2 (row 4096 262144 t.val (blk0_le t) (j 0)) (j 1) := by
  obtain ⟨e0, e1⟩ := idx0_7 t
  refine funext fun a => Fin.ext ?_
  match a with
  | ⟨0, _⟩ => show win0_7.index t (0 : Fin 2) * 4096 + 1 * (j 0).val = t.val * 4096 + (j 0).val; rw [e0]; omega
  | ⟨1, _⟩ => show win0_7.index t (1 : Fin 2) * 64 + 1 * (j 1).val = (j 1).val; rw [e1]; omega

/-- What point `t` writes back is block `t` of `G` of the operand arrays, when the stored value agrees with `G` on
    the block's rows. -/
theorem flushed0 (G : (S262144x128.Idx → EReal) → (S262144x6.Idx → EReal) → (S6x8.Idx → EReal) → (S8x128.Idx → EReal) → (S128x128.Idx → EReal) → (S128.Idx → EReal) → (S128x64.Idx → EReal) → S262144x64.Idx → EReal)
    (hG : ∀ (t : Nat) (ht : (t + 1) * 4096 ≤ 262144) (A0 : S262144x128.Idx → EReal) (A1 : S262144x6.Idx → EReal)
      (W6 : S6x8.Idx → EReal) (W7 : S8x128.Idx → EReal) (W12 : S128x128.Idx → EReal) (b13 : S128.Idx → EReal)
      (W14 : S128x64.Idx → EReal) (p : Fin 4096) (q : Fin 64),
      k0_pay1 (F := Ideal) (rowBlock 4096 262144 128 t ht A0) (rowBlock 4096 262144 6 t ht A1) W6 W7 W12 b13 W14 (ix2 p q)
        = G A0 A1 W6 W7 W12 b13 W14 (ix2 (row 4096 262144 t ht p) q))
    (c : Dev nD) (t : Fin cfg0.N) :
    (dat0 V c).flushed 7 t
      = ((cfg0.win 7).blk t).view.read (Elt Ideal) (G (V c main_arg0) (V c main_arg1) (V c main_arg6) (V c main_arg7)
          (V c main_arg12) (V c main_arg13) (V c main_arg14)) := by
  show (cfg0.win 7).cut (grid0.coords t) ((dat0 V c).after 7 t) = _
  rw [after0_7]
  unfold out0_7
  rw [View.canon_unit_zero zeros2₀]
  simp only [View.ld_unit_zero (S := S4096x128) zeros2₀, View.ld_unit_zero (S := S4096x6) zeros2₀,
    View.ld_unit_zero (S := S6x8) zeros2₀, View.ld_unit_zero (S := S8x128) zeros2₀,
    View.ld_unit_zero (S := S128x128) zeros2₀, View.ld_unit_zero (S := S128) zeros1₀,
    View.ld_unit_zero (S := S128x64) zeros2₀]
  funext j
  rw [View.read_apply, emb0_7 t j]
  show k0_pay1 (F := Ideal) (iblk0 V c 0 t) (iblk0 V c 1 t) (iblk0 V c 2 t) (iblk0 V c 3 t) (iblk0 V c 4 t)
    (iblk0 V c 5 t) (iblk0 V c 6 t) j = _
  rw [iblk0_0 V c t, iblk0_1 V c t, iblk0_2 V c t, iblk0_3 V c t, iblk0_4 V c t, iblk0_5 V c t, iblk0_6 V c t, eq_ix2 j]
  exact hG t.val (blk0_le t) _ _ _ _ _ _ _ (j 0) (j 1)

/-- Every row of the output is in the block of the point that owns it. -/
theorem cover0 (i : S262144x64.Idx) :
    ∃ t : Fin cfg0.N, (cfg0.win 7).flush t = true ∧ i ∈ ((cfg0.win 7).blk t).view.set := by
  have hN : cfg0.N = 64 := N_0
  have hi0 : (i 0).val < 262144 := (i 0).isLt
  have hi1 : (i 1).val < 64 := (i 1).isLt
  let t : Fin cfg0.N := ⟨(i 0).val / 4096, by rw [hN]; omega⟩
  have ht : t.val = (i 0).val / 4096 := rfl
  obtain ⟨e0, e1⟩ := idx0_7 t
  refine ⟨t, flush0_7 t, ?_⟩
  show i ∈ ((View.whole main_v0).slice (win0_7.rect t)).set
  rw [View.set_slice_whole, Rect.mem_set_unit]
  intro a
  match a with
  | ⟨0, _⟩ => show win0_7.index t (0 : Fin 2) * 4096 ≤ (i 0).val ∧ (i 0).val < win0_7.index t (0 : Fin 2) * 4096 + 4096
              rw [e0, ht]; omega
  | ⟨1, _⟩ => show win0_7.index t (1 : Fin 2) * 64 ≤ (i 1).val ∧ (i 1).val < win0_7.index t (1 : Fin 2) * 64 + 64
              rw [e1]; omega

/-- The edge kernel's output array after its run: `G` of the operand arrays as the kernel found them. -/
theorem final0 (G : (S262144x128.Idx → EReal) → (S262144x6.Idx → EReal) → (S6x8.Idx → EReal) → (S8x128.Idx → EReal) → (S128x128.Idx → EReal) → (S128.Idx → EReal) → (S128x64.Idx → EReal) → S262144x64.Idx → EReal)
    (hG : ∀ (t : Nat) (ht : (t + 1) * 4096 ≤ 262144) (A0 : S262144x128.Idx → EReal) (A1 : S262144x6.Idx → EReal)
      (W6 : S6x8.Idx → EReal) (W7 : S8x128.Idx → EReal) (W12 : S128x128.Idx → EReal) (b13 : S128.Idx → EReal)
      (W14 : S128x64.Idx → EReal) (p : Fin 4096) (q : Fin 64),
      k0_pay1 (F := Ideal) (rowBlock 4096 262144 128 t ht A0) (rowBlock 4096 262144 6 t ht A1) W6 W7 W12 b13 W14 (ix2 p q)
        = G A0 A1 W6 W7 W12 b13 W14 (ix2 (row 4096 262144 t ht p) q))
    (c : Dev nD) :
    (dat0 V c).arrAt 7 cfg0.N = G (V c main_arg0) (V c main_arg1) (V c main_arg6) (V c main_arg7)
      (V c main_arg12) (V c main_arg13) (V c main_arg14) :=
  (dat0 V c).arrAt_eq_of_cover 7 (G (V c main_arg0) (V c main_arg1) (V c main_arg6) (V c main_arg7)
      (V c main_arg12) (V c main_arg13) (V c main_arg14))
    (fun t _ => flushed0 V G hG c t) cover0

end Cert.KernelIdeal.Blocks

end
-- ==== Proof.Blocks1.lean ====
/-
  The triplet kernel's output array, from its blocks.

  The kernel runs over 256 grid points; point `t` reads rows `8192·t, …, 8192·t + 8191` of the spherical-basis array
  and the two whole weight matrices, and writes rows `8192·t, …` of its output. The 256 row blocks tile the output, so
  if the value stored at a point is, entry by entry, a whole-array function `G` of the operands read at the block's
  rows, the output array ends holding `G` of the operands as the kernel found them.
-/
import proofs.«156858_j62457414418909_2_alg».proof.Proof.Gen.KernelIdeal.Frame
import proofs.«156858_j62457414418909_2_alg».proof.Proof.Rows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Rows

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps of the triplet kernel's windows, over its grid: the row-blocked windows are at block row
    `t`, the weights at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem blk1_le (t : Fin cfg1.N) : (t.val + 1) * 8192 ≤ 2097152 := by
  have h := t.isLt
  have e : cfg1.N = 256 := N_1
  omega

/-- The spherical-basis window's block at point `t` is rows `8192·t, …` of its array. -/
theorem iblk1_0 (c : Dev nD) (t : Fin cfg1.N) :
    (iblk1 V c 0 t : S8192x42.Idx → EReal) = rowBlock 8192 2097152 42 t.val (blk1_le t) (V c main_arg2) := by
  obtain ⟨e0, e1, -⟩ := idx1 t
  funext x
  unfold iblk1
  rw [View.read_apply]
  show V c main_arg2 _ = V c main_arg2 _
  refine congrArg _ (funext fun a => Fin.ext ?_)
  match a with
  | ⟨0, _⟩ => show win1_0.index t (0 : Fin 2) * 8192 + 1 * (x 0).val = t.val * 8192 + (x 0).val; rw [e0]; omega
  | ⟨1, _⟩ => show win1_0.index t (1 : Fin 2) * 42 + 1 * (x 1).val = (x 1).val; rw [e1]; omega

/-- The first weight window's one block is its whole array. -/
theorem iblk1_1 (c : Dev nD) (t : Fin cfg1.N) : (iblk1 V c 1 t : S42x8.Idx → EReal) = V c main_arg8 := by
  obtain ⟨-, -, e0, e1, -⟩ := idx1 t
  funext x
  unfold iblk1
  rw [View.read_apply]
  show V c main_arg8 _ = V c main_arg8 _
  refine congrArg _ (funext fun a => Fin.ext ?_)
  match a with
  | ⟨0, _⟩ => show win1_1.index t (0 : Fin 2) * 42 + 1 * (x 0).val = (x 0).val; rw [e0]; omega
  | ⟨1, _⟩ => show win1_1.index t (1 : Fin 2) * 8 + 1 * (x 1).val = (x 1).val; rw [e1]; omega

/-- The second weight window's one block is its whole array. -/
theorem iblk1_2 (c : Dev nD) (t : Fin cfg1.N) : (iblk1 V c 2 t : S8x64.Idx → EReal) = V c main_arg9 := by
  obtain ⟨-, -, -, -, e0, e1, -⟩ := idx1 t
  funext x
  unfold iblk1
  rw [View.read_apply]
  show V c main_arg9 _ = V c main_arg9 _
  refine congrArg _ (funext fun a => Fin.ext ?_)
  match a with
  | ⟨0, _⟩ => show win1_2.index t (0 : Fin 2) * 8 + 1 * (x 0).val = (x 0).val; rw [e0]; omega
  | ⟨1, _⟩ => show win1_2.index t (1 : Fin 2) * 64 + 1 * (x 1).val = (x 1).val; rw [e1]; omega

/-- The output window's block at point `t` sits at rows `8192·t, …` of the output array. -/
theorem emb1_3 (t : Fin cfg1.N) (j : S8192x64.Idx) :
    ((cfg1.win 3).blk t).view.emb j = ix2 (row 8192 2097152 t.val (blk1_le t) (j 0)) (j 1) := by
  obtain ⟨-, -, -, -, -, -, e0, e1⟩ := idx1 t
  refine funext fun a => Fin.ext ?_
  match a with
  | ⟨0, _⟩ => show win1_3.index t (0 : Fin 2) * 8192 + 1 * (j 0).val = t.val * 8192 + (j 0).val; rw [e0]; omega
  | ⟨1, _⟩ => show win1_3.index t (1 : Fin 2) * 64 + 1 * (j 1).val = (j 1).val; rw [e1]; omega

/-- What point `t` writes back is block `t` of `G` of the operand arrays, when the stored value agrees with `G` on
    the block's rows. -/
theorem flushed1 (G : (S2097152x42.Idx → EReal) → (S42x8.Idx → EReal) → (S8x64.Idx → EReal) → S2097152x64.Idx → EReal)
    (hG : ∀ (t : Nat) (ht : (t + 1) * 8192 ≤ 2097152) (A : S2097152x42.Idx → EReal) (W8 : S42x8.Idx → EReal)
      (W9 : S8x64.Idx → EReal) (p : Fin 8192) (q : Fin 64),
      k1_pay1 (F := Ideal) (rowBlock 8192 2097152 42 t ht A) W8 W9 (ix2 p q) = G A W8 W9 (ix2 (row 8192 2097152 t ht p) q))
    (c : Dev nD) (t : Fin cfg1.N) :
    (dat1 V c).flushed 3 t
      = ((cfg1.win 3).blk t).view.read (Elt Ideal) (G (V c main_arg2) (V c main_arg8) (V c main_arg9)) := by
  show (cfg1.win 3).cut (grid1.coords t) ((dat1 V c).after 3 t) = _
  rw [after1_3]
  unfold out1_3
  rw [View.canon_unit_zero zeros2]
  simp only [View.ld_unit_zero (S := S8192x42) zeros2, View.ld_unit_zero (S := S42x8) zeros2,
    View.ld_unit_zero (S := S8x64) zeros2]
  funext j
  rw [View.read_apply, emb1_3 t j]
  show k1_pay1 (F := Ideal) (iblk1 V c 0 t) (iblk1 V c 1 t) (iblk1 V c 2 t) j = _
  rw [iblk1_0 V c t, iblk1_1 V c t, iblk1_2 V c t, eq_ix2 j]
  exact hG t.val (blk1_le t) _ _ _ (j 0) (j 1)

/-- Every row of the output is in the block of the point that owns it. -/
theorem cover1 (i : S2097152x64.Idx) :
    ∃ t : Fin cfg1.N, (cfg1.win 3).flush t = true ∧ i ∈ ((cfg1.win 3).blk t).view.set := by
  have hN : cfg1.N = 256 := N_1
  have hi0 : (i 0).val < 2097152 := (i 0).isLt
  have hi1 : (i 1).val < 64 := (i 1).isLt
  let t : Fin cfg1.N := ⟨(i 0).val / 8192, by rw [hN]; omega⟩
  have ht : t.val = (i 0).val / 8192 := rfl
  obtain ⟨-, -, -, -, -, -, e0, e1⟩ := idx1 t
  refine ⟨t, flush1_3 t, ?_⟩
  show i ∈ ((View.whole main_v1).slice (win1_3.rect t)).set
  rw [View.set_slice_whole, Rect.mem_set_unit]
  intro a
  match a with
  | ⟨0, _⟩ => show win1_3.index t (0 : Fin 2) * 8192 ≤ (i 0).val ∧ (i 0).val < win1_3.index t (0 : Fin 2) * 8192 + 8192
              rw [e0, ht]; omega
  | ⟨1, _⟩ => show win1_3.index t (1 : Fin 2) * 64 ≤ (i 1).val ∧ (i 1).val < win1_3.index t (1 : Fin 2) * 64 + 64
              rw [e1]; omega

/-- The triplet kernel's output array after its run: `G` of the operand arrays as the kernel found them. -/
theorem final1 (G : (S2097152x42.Idx → EReal) → (S42x8.Idx → EReal) → (S8x64.Idx → EReal) → S2097152x64.Idx → EReal)
    (hG : ∀ (t : Nat) (ht : (t + 1) * 8192 ≤ 2097152) (A : S2097152x42.Idx → EReal) (W8 : S42x8.Idx → EReal)
      (W9 : S8x64.Idx → EReal) (p : Fin 8192) (q : Fin 64),
      k1_pay1 (F := Ideal) (rowBlock 8192 2097152 42 t ht A) W8 W9 (ix2 p q) = G A W8 W9 (ix2 (row 8192 2097152 t ht p) q))
    (c : Dev nD) :
    (dat1 V c).arrAt 3 cfg1.N = G (V c main_arg2) (V c main_arg8) (V c main_arg9) :=
  (dat1 V c).arrAt_eq_of_cover 3 (G (V c main_arg2) (V c main_arg8) (V c main_arg9))
    (fun t _ => flushed1 V G hG c t) cover1

end Cert.KernelIdeal.Blocks

end
-- ==== Proof.Pay2.lean ====
/-
  The final kernel's stored value as ONE function of what its body loads.

  The body's store is written over six generated pieces (the value before the skip connection, the two residual
  layers after it, and the casts between them). `pay2` composes them in the order the body does: `x0` the block of
  edge embeddings, `x1` the block of aggregated triplet messages, `x2 … x10` the weights and biases of the layers
  before the skip connection, then the two residual layers' weights and biases, each loaded as one slice of a stack
  (`wa1₀ ba1₀ wa2₀ ba2₀` for the first layer, `wa1₁ ba1₁ wa2₁ ba2₁` for the second).
-/
import proofs.«156858_j62457414418909_2_alg».proof.Proof.Gen.KernelIdeal.Skeleton
import Idealize.ShloMosaic.PureOps.Ideal

noncomputable section

namespace Cert.Pay2

open Idealize.ShloMosaic Cert.KernelIdeal Cert.KernelIdeal.Gen

/-- What the final kernel stores, from the values its body loads. -/
def pay2 (x0 : Vec Ideal S4096x128 .f32) (x1 : Vec Ideal S4096x64 .f32) (x2 : Vec Ideal S128x128 .f32)
    (x3 : Vec Ideal S128 .f32) (x4 : Vec Ideal S64x128 .f32) (x5 : Vec Ideal S128x128 .f32) (x6 : Vec Ideal S128 .f32)
    (x7 : Vec Ideal S128x128 .f32) (x8 : Vec Ideal S128 .f32) (x9 : Vec Ideal S128x128 .f32) (x10 : Vec Ideal S128 .f32)
    (wa1₀ : Vec Ideal S1x128x128 .f32) (ba1₀ : Vec Ideal S1x128 .f32) (wa2₀ : Vec Ideal S1x128x128 .f32)
    (ba2₀ : Vec Ideal S1x128 .f32) (wa1₁ : Vec Ideal S1x128x128 .f32) (ba1₁ : Vec Ideal S1x128 .f32)
    (wa2₁ : Vec Ideal S1x128x128 .f32) (ba2₁ : Vec Ideal S1x128 .f32) : FVec Ideal S4096x128 .f32 :=
  k2_pay1 (F := Ideal)
    (k2_pay4 x0 (k2_pay2 x0 x2 x3 x1 x4) (k2_pay3 x0 x2 x3 x1 x4 x5 x6 x7 x8) x9 x10 wa1₀ ba1₀ wa2₀ ba2₀)
    (k2_pay5 x0 (k2_pay2 x0 x2 x3 x1 x4) (k2_pay3 x0 x2 x3 x1 x4 x5 x6 x7 x8) x9 x10 wa1₀ ba1₀ wa2₀ ba2₀)
    (k2_pay6 wa1₁) ba1₁ wa2₁ ba2₁

end Cert.Pay2

end
-- ==== Proof.Blocks2.lean ====
/-
  The final kernel's output array, from its blocks.

  The kernel runs over 64 grid points; point `t` reads rows `4096·t, …, 4096·t + 4095` of the edge embeddings and of
  the aggregated triplet messages, and thirteen whole weight arrays, and writes rows `4096·t, …` of the result. Its
  body loads the two later residual layers' weights one layer at a time: a load through the sub-rectangle of a
  stacked array that starts at layer `i` reads that layer's matrix (`slab i`) or bias row (`srow i`). The 64 row
  blocks tile the result, so if the value stored at a point is, entry by entry, a whole-array function `G` of the
  operands read at the block's rows, the result array ends holding `G` of the operands as the kernel found them.
-/
import proofs.«156858_j62457414418909_2_alg».proof.Proof.Gen.KernelIdeal.Frame
import proofs.«156858_j62457414418909_2_alg».proof.Proof.Rows
import proofs.«156858_j62457414418909_2_alg».proof.Proof.Pay2
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Rows

variable (V : (c : Dev nD) → (b : Ref sig .tc) → Buf (Elt Ideal) ((c : Thread nD τ).loc b))

theorem zeros2₂ : (![0, 0] : Fin 2 → Nat) = fun _ => 0 := funext fun a => by fin_cases a <;> rfl
theorem zeros1₂ : (![0] : Fin 1 → Nat) = fun _ => 0 := funext fun a => by fin_cases a; rfl

/-! ## A load of one layer out of a stack -/

/-- A load through the sub-rectangle that starts at layer 0 of a stack of two matrices reads matrix 0. -/
theorem ld_slab0 (X : Vec Ideal S2x128x128 .f32) : (View.ld X r2_5 : Vec Ideal S1x128x128 .f32) = slab 0 X := by
  funext x
  show X (r2_5.idx x) = X (ix3 0 (x 1) (x 2))
  refine congrArg X (funext fun a => Fin.ext ?_)
  have h0 : (x 0).val < 1 := (x 0).isLt
  match a with
  | ⟨0, _⟩ => show 0 + 1 * (x 0).val = 0; omega
  | ⟨1, _⟩ => show 0 + 1 * (x 1).val = (x 1).val; omega
  | ⟨2, _⟩ => show 0 + 1 * (x 2).val = (x 2).val; omega

/-- A load through the sub-rectangle that starts at layer 1 reads matrix 1. -/
theorem ld_slab1 (X : Vec Ideal S2x128x128 .f32) : (View.ld X r2_7 : Vec Ideal S1x128x128 .f32) = slab 1 X := by
  funext x
  show X (r2_7.idx x) = X (ix3 1 (x 1) (x 2))
  refine congrArg X (funext fun a => Fin.ext ?_)
  have h0 : (x 0).val < 1 := (x 0).isLt
  match a with
  | ⟨0, _⟩ => show 1 + 1 * (x 0).val = 1; omega
  | ⟨1, _⟩ => show 0 + 1 * (x 1).val = (x 1).val; omega
  | ⟨2, _⟩ => show 0 + 1 * (x 2).val = (x 2).val; omega

/-- A load through the sub-rectangle that starts at row 0 of a two-row matrix reads row 0. -/
theorem ld_srow0 (X : Vec Ideal S2x128 .f32) : (View.ld X r2_6 : Vec Ideal S1x128 .f32) = srow 0 X := by
  funext x
  show X (r2_6.idx x) = X (ix2 0 (x 1))
  refine congrArg X (funext fun a => Fin.ext ?_)
  have h0 : (x 0).val < 1 := (x 0).isLt
  match a with
  | ⟨0, _⟩ => show 0 + 1 * (x 0).val = 0; omega
  | ⟨1, _⟩ => show 0 + 1 * (x 1).val = (x 1).val; omega

/-- A load through the sub-rectangle that starts at row 1 reads row 1. -/
theorem ld_srow1 (X : Vec Ideal S2x128 .f32) : (View.ld X r2_8 : Vec Ideal S1x128 .f32) = srow 1 X := by
  funext x
  show X (r2_8.idx x) = X (ix2 1 (x 1))
  refine congrArg X (funext fun a => Fin.ext ?_)
  have h0 : (x 0).val < 1 := (x 0).isLt
  match a with
  | ⟨0, _⟩ => show 1 + 1 * (x 0).val = 1; omega
  | ⟨1, _⟩ => show 0 + 1 * (x 1).val = (x 1).val; omega

/-! ## The windows' blocks

The printed index maps, over the grid: a row-blocked window is at block row `t`, a weight at its one block. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 1) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 1) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 1) = 0 :=
  (by decide +kernel : ∀ t : Fin grid2.N, _)
theorem idx2_9 : ∀ t : Fin cfg2.N, win2_9.index t (0 : Fin 2) = 0 ∧ win2_9.index t (1 : Fin 2) = 0 :=
  (by decide +kernel : ∀ t : Fin grid2.N, _)
theorem idx2_10 : ∀ t : Fin cfg2.N, win2_10.index t (0 : Fin 1) = 0 :=
  (by decide +kernel : ∀ t : Fin grid2.N, _)
theorem idx2_11 : ∀ t : Fin cfg2.N, win2_11.index t (0 : Fin 3) = 0 ∧ win2_11.index t (1 : Fin 3) = 0 ∧ win2_11.index t (2 : Fin 3) = 0 :=
  (by decide +kernel : ∀ t : Fin grid2.N, _)
theorem idx2_12 : ∀ t : Fin cfg2.N, win2_12.index t (0 : Fin 2) = 0 ∧ win2_12.index t (1 : Fin 2) = 0 :=
  (by decide +kernel : ∀ t : Fin grid2.N, _)
theorem idx2_13 : ∀ t : Fin cfg2.N, win2_13.index t (0 : Fin 3) = 0 ∧ win2_13.index t (1 : Fin 3) = 0 ∧ win2_13.index t (2 : Fin 3) = 0 :=
  (by decide +kernel : ∀ t : Fin grid2.N, _)
theorem idx2_14 : ∀ t : Fin cfg2.N, win2_14.index t (0 : Fin 2) = 0 ∧ win2_14.index t (1 : Fin 2) = 0 :=
  (by decide +kernel : ∀ t : Fin grid2.N, _)
theorem idx2_15 : ∀ t : Fin cfg2.N, win2_15.index t (0 : Fin 2) = t.val ∧ win2_15.index t (1 : Fin 2) = 0 :=
  (by decide +kernel : ∀ t : Fin grid2.N, _)

theorem blk2_le (t : Fin cfg2.N) : (t.val + 1) * 4096 ≤ 262144 := by
  have h := t.isLt
  have e : cfg2.N = 64 := N_2
  omega

/-- The edge-embedding window's block at point `t` is rows `4096·t, …` of its array. -/
theorem iblk2_0 (c : Dev nD) (t : Fin cfg2.N) :
    (iblk2 V c 0 t : S4096x128.Idx → EReal) = rowBlock 4096 262144 128 t.val (blk2_le t) (V c main_arg0) := by
  obtain ⟨e0, e1⟩ := idx2_0 t
  funext x
  unfold iblk2
  rw [View.read_apply]
  show V c main_arg0 _ = V c main_arg0 _
  refine congrArg _ (funext fun a => Fin.ext ?_)
  match a with
  | ⟨0, _⟩ => show win2_0.index t (0 : Fin 2) * 4096 + 1 * (x 0).val = t.val * 4096 + (x 0).val; rw [e0]; omega
  | ⟨1, _⟩ => show win2_0.index t (1 : Fin 2) * 128 + 1 * (x 1).val = (x 1).val; rw [e1]; omega

/-- The aggregated-message window's block at point `t` is rows `4096·t, …` of its array. -/
theorem iblk2_1 (c : Dev nD) (t : Fin cfg2.N) :
    (iblk2 V c 1 t : S4096x64.Idx → EReal) = rowBlock 4096 262144 64 t.val (blk2_le t) (V c main_v14) := by
  obtain ⟨e0, e1⟩ := idx2_1 t
  funext x
  unfold iblk2
  rw [View.read_apply]
  show V c main_v14 _ = V c main_v14 _
  refine congrArg _ (funext fun a => Fin.ext ?_)
  match a with
  | ⟨0, _⟩ => show win2_1.index t (0 : Fin 2) * 4096 + 1 * (x 0).val = t.val * 4096 + (x 0).val; rw [e0]; omega
  | ⟨1, _⟩ => show win2_1.index t (1 : Fin 2) * 64 + 1 * (x 1).val = (x 1).val; rw [e1]; omega

/-- The first dense weight's one block is its whole array. -/
theorem iblk2_2 (c : Dev nD) (t : Fin cfg2.N) : (iblk2 V c 2 t : S128x128.Idx → EReal) = V c main_arg10 := by
  obtain ⟨e0, e1⟩ := idx2_2 t
  funext x
  unfold iblk2
  rw [View.read_apply]
  show V c main_arg10 _ = V c main_arg10 _
  refine congrArg _ (funext fun a => Fin.ext ?_)
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

/-- The first dense bias's one block is its whole array. -/
theorem iblk2_3 (c : Dev nD) (t : Fin cfg2.N) : (iblk2 V c 3 t : S128.Idx → EReal) = V c main_arg11 := by
  have e0 := idx2_3 t
  funext x
  unfold iblk2
  rw [View.read_apply]
  show V c main_arg11 _ = V c main_arg11 _
  refine congrArg _ (funext fun a => Fin.ext ?_)
  match a with
  | ⟨0, _⟩ => show win2_3.index t (0 : Fin 1) * 128 + 1 * (x 0).val = (x 0).val; rw [e0]; omega

/-- The up-projection weight's one block is its whole array. -/
theorem iblk2_4 (c : Dev nD) (t : Fin cfg2.N) : (iblk2 V c 4 t : S64x128.Idx → EReal) = V c main_arg15 := by
  obtain ⟨e0, e1⟩ := idx2_4 t
  funext x
  unfold iblk2
  rw [View.read_apply]
  show V c main_arg15 _ = V c main_arg15 _
  refine congrArg _ (funext fun a => Fin.ext ?_)
  match a with
  | ⟨0, _⟩ => show win2_4.index t (0 : Fin 2) * 64 + 1 * (x 0).val = (x 0).val; rw [e0]; omega
  | ⟨1, _⟩ => show win2_4.index t (1 : Fin 2) * 128 + 1 * (x 1).val = (x 1).val; rw [e1]; omega

/-- The residual layer's first weight: its one block is its whole array. -/
theorem iblk2_5 (c : Dev nD) (t : Fin cfg2.N) : (iblk2 V c 5 t : S128x128.Idx → EReal) = V c main_arg16 := by
  obtain ⟨e0, e1⟩ := idx2_5 t
  funext x
  unfold iblk2
  rw [View.read_apply]
  show V c main_arg16 _ = V c main_arg16 _
  refine congrArg _ (funext fun a => Fin.ext ?_)
  match a with
  | ⟨0, _⟩ => show win2_5.index t (0 : Fin 2) * 128 + 1 * (x 0).val = (x 0).val; rw [e0]; omega
  | ⟨1, _⟩ => show win2_5.index t (1 : Fin 2) * 128 + 1 * (x 1).val = (x 1).val; rw [e1]; omega

/-- The residual layer's first bias: its one block is its whole array. -/
theorem iblk2_6 (c : Dev nD) (t : Fin cfg2.N) : (iblk2 V c 6 t : S128.Idx → EReal) = V c main_arg17 := by
  have e0 := idx2_6 t
  funext x
  unfold iblk2
  rw [View.read_apply]
  show V c main_arg17 _ = V c main_arg17 _
  refine congrArg _ (funext fun a => Fin.ext ?_)
  match a with
  | ⟨0, _⟩ => show win2_6.index t (0 : Fin 1) * 128 + 1 * (x 0).val = (x 0).val; rw [e0]; omega

/-- The residual layer's second weight: its one block is its whole array. -/
theorem iblk2_7 (c : Dev nD) (t : Fin cfg2.N) : (iblk2 V c 7 t : S128x128.Idx → EReal) = V c main_arg18 := by
  obtain ⟨e0, e1⟩ := idx2_7 t
  funext x
  unfold iblk2
  rw [View.read_apply]
  show V c main_arg18 _ = V c main_arg18 _
  refine congrArg _ (funext fun a => Fin.ext ?_)
  match a with
  | ⟨0, _⟩ => show win2_7.index t (0 : Fin 2) * 128 + 1 * (x 0).val = (x 0).val; rw [e0]; omega
  | ⟨1, _⟩ => show win2_7.index t (1 : Fin 2) * 128 + 1 * (x 1).val = (x 1).val; rw [e1]; omega

/-- The residual layer's second bias: its one block is its whole array. -/
theorem iblk2_8 (c : Dev nD) (t : Fin cfg2.N) : (iblk2 V c 8 t : S128.Idx → EReal) = V c main_arg19 := by
  have e0 := idx2_8 t
  funext x
  unfold iblk2
  rw [View.read_apply]
  show V c main_arg19 _ = V c main_arg19 _
  refine congrArg _ (funext fun a => Fin.ext ?_)
  match a with
  | ⟨0, _⟩ => show win2_8.index t (0 : Fin 1) * 128 + 1 * (x 0).val = (x 0).val; rw [e0]; omega

/-- The last dense weight before the skip connection: its one block is its whole array. -/
theorem iblk2_9 (c : Dev nD) (t : Fin cfg2.N) : (iblk2 V c 9 t : S128x128.Idx → EReal) = V c main_arg20 := by
  obtain ⟨e0, e1⟩ := idx2_9 t
  funext x
  unfold iblk2
  rw [View.read_apply]
  show V c main_arg20 _ = V c main_arg20 _
  refine congrArg _ (funext fun a => Fin.ext ?_)
  match a with
  | ⟨0, _⟩ => show win2_9.index t (0 : Fin 2) * 128 + 1 * (x 0).val = (x 0).val; rw [e0]; omega
  | ⟨1, _⟩ => show win2_9.index t (1 : Fin 2) * 128 + 1 * (x 1).val = (x 1).val; rw [e1]; omega

/-- The last dense bias before the skip connection: its one block is its whole array. -/
theorem iblk2_10 (c : Dev nD) (t : Fin cfg2.N) : (iblk2 V c 10 t : S128.Idx → EReal) = V c main_arg21 := by
  have e0 := idx2_10 t
  funext x
  unfold iblk2
  rw [View.read_apply]
  show V c main_arg21 _ = V c main_arg21 _
  refine congrArg _ (funext fun a => Fin.ext ?_)
  match a with
  | ⟨0, _⟩ => show win2_10.index t (0 : Fin 1) * 128 + 1 * (x 0).val = (x 0).val; rw [e0]; omega

/-- The stacked first weights of the two later residual layers: one block, the whole array. -/
theorem iblk2_11 (c : Dev nD) (t : Fin cfg2.N) : (iblk2 V c 11 t : S2x128x128.Idx → EReal) = V c main_arg22 := by
  obtain ⟨e0, e1, e2⟩ := idx2_11 t
  funext x
  unfold iblk2
  rw [View.read_apply]
  show V c main_arg22 _ = V c main_arg22 _
  refine congrArg _ (funext fun a => Fin.ext ?_)
  match a with
  | ⟨0, _⟩ => show win2_11.index t (0 : Fin 3) * 2 + 1 * (x 0).val = (x 0).val; rw [e0]; omega
  | ⟨1, _⟩ => show win2_11.index t (1 : Fin 3) * 128 + 1 * (x 1).val = (x 1).val; rw [e1]; omega
  | ⟨2, _⟩ => show win2_11.index t (2 : Fin 3) * 128 + 1 * (x 2).val = (x 2).val; rw [e2]; omega

/-- The stacked first biases of the two later residual layers: one block, the whole array. -/
theorem iblk2_12 (c : Dev nD) (t : Fin cfg2.N) : (iblk2 V c 12 t : S2x128.Idx → EReal) = V c main_arg23 := by
  obtain ⟨e0, e1⟩ := idx2_12 t
  funext x
  unfold iblk2
  rw [View.read_apply]
  show V c main_arg23 _ = V c main_arg23 _
  refine congrArg _ (funext fun a => Fin.ext ?_)
  match a with
  | ⟨0, _⟩ => show win2_12.index t (0 : Fin 2) * 2 + 1 * (x 0).val = (x 0).val; rw [e0]; omega
  | ⟨1, _⟩ => show win2_12.index t (1 : Fin 2) * 128 + 1 * (x 1).val = (x 1).val; rw [e1]; omega

/-- The stacked second weights of the two later residual layers: one block, the whole array. -/
theorem iblk2_13 (c : Dev nD) (t : Fin cfg2.N) : (iblk2 V c 13 t : S2x128x128.Idx → EReal) = V c main_arg24 := by
  obtain ⟨e0, e1, e2⟩ := idx2_13 t
  funext x
  unfold iblk2
  rw [View.read_apply]
  show V c main_arg24 _ = V c main_arg24 _
  refine congrArg _ (funext fun a => Fin.ext ?_)
  match a with
  | ⟨0, _⟩ => show win2_13.index t (0 : Fin 3) * 2 + 1 * (x 0).val = (x 0).val; rw [e0]; omega
  | ⟨1, _⟩ => show win2_13.index t (1 : Fin 3) * 128 + 1 * (x 1).val = (x 1).val; rw [e1]; omega
  | ⟨2, _⟩ => show win2_13.index t (2 : Fin 3) * 128 + 1 * (x 2).val = (x 2).val; rw [e2]; omega

/-- The stacked second biases of the two later residual layers: one block, the whole array. -/
theorem iblk2_14 (c : Dev nD) (t : Fin cfg2.N) : (iblk2 V c 14 t : S2x128.Idx → EReal) = V c main_arg25 := by
  obtain ⟨e0, e1⟩ := idx2_14 t
  funext x
  unfold iblk2
  rw [View.read_apply]
  show V c main_arg25 _ = V c main_arg25 _
  refine congrArg _ (funext fun a => Fin.ext ?_)
  match a with
  | ⟨0, _⟩ => show win2_14.index t (0 : Fin 2) * 2 + 1 * (x 0).val = (x 0).val; rw [e0]; omega
  | ⟨1, _⟩ => show win2_14.index t (1 : Fin 2) * 128 + 1 * (x 1).val = (x 1).val; rw [e1]; omega

/-- The result window's block at point `t` sits at rows `4096·t, …` of the result array. -/
theorem emb2_15 (t : Fin cfg2.N) (j : S4096x128.Idx) :
    ((cfg2.win 15).blk t).view.emb j = ix2 (row 4096 262144 t.val (blk2_le t) (j 0)) (j 1) := by
  obtain ⟨e0, e1⟩ := idx2_15 t
  refine funext fun a => Fin.ext ?_
  match a with
  | ⟨0, _⟩ => show win2_15.index t (0 : Fin 2) * 4096 + 1 * (j 0).val = t.val * 4096 + (j 0).val; rw [e0]; omega
  | ⟨1, _⟩ => show win2_15.index t (1 : Fin 2) * 128 + 1 * (j 1).val = (j 1).val; rw [e1]; omega

/-! ## Blocks to the array -/

/-- What point `t` writes back is block `t` of `G` of the operand arrays, when the stored value agrees with `G` on
    the block's rows. -/
theorem flushed2 (G : (S262144x128.Idx → EReal) → (S262144x64.Idx → EReal) → (S128x128.Idx → EReal) → (S128.Idx → EReal) → (S64x128.Idx → EReal) → (S128x128.Idx → EReal) → (S128.Idx → EReal) → (S128x128.Idx → EReal) → (S128.Idx → EReal) → (S128x128.Idx → EReal) → (S128.Idx → EReal) → (S2x128x128.Idx → EReal) → (S2x128.Idx → EReal) → (S2x128x128.Idx → EReal) → (S2x128.Idx → EReal) → S262144x128.Idx → EReal)
    (hG : ∀ (t : Nat) (ht : (t + 1) * 4096 ≤ 262144) (A0 : S262144x128.Idx → EReal) (KJ : S262144x64.Idx → EReal)
      (x10 : S128x128.Idx → EReal) (x11 : S128.Idx → EReal) (x15 : S64x128.Idx → EReal) (x16 : S128x128.Idx → EReal)
      (x17 : S128.Idx → EReal) (x18 : S128x128.Idx → EReal) (x19 : S128.Idx → EReal) (x20 : S128x128.Idx → EReal)
      (x21 : S128.Idx → EReal) (x22 : S2x128x128.Idx → EReal) (x23 : S2x128.Idx → EReal) (x24 : S2x128x128.Idx → EReal)
      (x25 : S2x128.Idx → EReal) (p : Fin 4096) (q : Fin 128),
      Cert.Pay2.pay2 (rowBlock 4096 262144 128 t ht A0) (rowBlock 4096 262144 64 t ht KJ) x10 x11 x15 x16 x17 x18 x19 x20 x21
          (slab 0 x22) (srow 0 x23) (slab 0 x24) (srow 0 x25) (slab 1 x22) (srow 1 x23) (slab 1 x24) (srow 1 x25) (ix2 p q)
        = G A0 KJ x10 x11 x15 x16 x17 x18 x19 x20 x21 x22 x23 x24 x25 (ix2 (row 4096 262144 t ht p) q))
    (c : Dev nD) (t : Fin cfg2.N) :
    (dat2 V c).flushed 15 t
      = ((cfg2.win 15).blk t).view.read (Elt Ideal) (G (V c main_arg0) (V c main_v14) (V c main_arg10) (V c main_arg11) (V c main_arg15) (V c main_arg16)
      (V c main_arg17) (V c main_arg18) (V c main_arg19) (V c main_arg20) (V c main_arg21) (V c main_arg22) (V c main_arg23)
      (V c main_arg24) (V c main_arg25)) := by
  show (cfg2.win 15).cut (grid2.coords t) ((dat2 V c).after 15 t) = _
  rw [after2_15]
  unfold out2_15
  rw [View.canon_unit_zero zeros2₂]
  simp only [View.ld_unit_zero (S := S4096x128) zeros2₂, View.ld_unit_zero (S := S4096x64) zeros2₂,
    View.ld_unit_zero (S := S128x128) zeros2₂, View.ld_unit_zero (S := S128) zeros1₂,
    View.ld_unit_zero (S := S64x128) zeros2₂, ld_slab0, ld_slab1, ld_srow0, ld_srow1]
  funext j
  rw [View.read_apply, emb2_15 t j]
  show Cert.Pay2.pay2 (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) (iblk2 V c 10 t)
    (slab 0 (iblk2 V c 11 t)) (srow 0 (iblk2 V c 12 t)) (slab 0 (iblk2 V c 13 t)) (srow 0 (iblk2 V c 14 t))
    (slab 1 (iblk2 V c 11 t)) (srow 1 (iblk2 V c 12 t)) (slab 1 (iblk2 V c 13 t)) (srow 1 (iblk2 V c 14 t)) j = _
  rw [iblk2_0 V c t, iblk2_1 V c t, iblk2_2 V c t, iblk2_3 V c t, iblk2_4 V c t, iblk2_5 V c t, iblk2_6 V c t,
    iblk2_7 V c t, iblk2_8 V c t, iblk2_9 V c t, iblk2_10 V c t, iblk2_11 V c t, iblk2_12 V c t, iblk2_13 V c t,
    iblk2_14 V c t, eq_ix2 j]
  exact hG t.val (blk2_le t) _ _ _ _ _ _ _ _ _ _ _ _ _ _ _ (j 0) (j 1)

/-- Every row of the result is in the block of the point that owns it. -/
theorem cover2 (i : S262144x128.Idx) :
    ∃ t : Fin cfg2.N, (cfg2.win 15).flush t = true ∧ i ∈ ((cfg2.win 15).blk t).view.set := by
  have hN : cfg2.N = 64 := N_2
  have hi0 : (i 0).val < 262144 := (i 0).isLt
  have hi1 : (i 1).val < 128 := (i 1).isLt
  let t : Fin cfg2.N := ⟨(i 0).val / 4096, by rw [hN]; omega⟩
  have ht : t.val = (i 0).val / 4096 := rfl
  obtain ⟨e0, e1⟩ := idx2_15 t
  refine ⟨t, flush2_15 t, ?_⟩
  show i ∈ ((View.whole main_v15).slice (win2_15.rect t)).set
  rw [View.set_slice_whole, Rect.mem_set_unit]
  intro a
  match a with
  | ⟨0, _⟩ => show win2_15.index t (0 : Fin 2) * 4096 ≤ (i 0).val ∧ (i 0).val < win2_15.index t (0 : Fin 2) * 4096 + 4096
              rw [e0, ht]; omega
  | ⟨1, _⟩ => show win2_15.index t (1 : Fin 2) * 128 ≤ (i 1).val ∧ (i 1).val < win2_15.index t (1 : Fin 2) * 128 + 128
              rw [e1]; omega

/-- The result array after the final kernel's run: `G` of the operand arrays as the kernel found them. -/
theorem final2 (G : (S262144x128.Idx → EReal) → (S262144x64.Idx → EReal) → (S128x128.Idx → EReal) → (S128.Idx → EReal) → (S64x128.Idx → EReal) → (S128x128.Idx → EReal) → (S128.Idx → EReal) → (S128x128.Idx → EReal) → (S128.Idx → EReal) → (S128x128.Idx → EReal) → (S128.Idx → EReal) → (S2x128x128.Idx → EReal) → (S2x128.Idx → EReal) → (S2x128x128.Idx → EReal) → (S2x128.Idx → EReal) → S262144x128.Idx → EReal)
    (hG : ∀ (t : Nat) (ht : (t + 1) * 4096 ≤ 262144) (A0 : S262144x128.Idx → EReal) (KJ : S262144x64.Idx → EReal)
      (x10 : S128x128.Idx → EReal) (x11 : S128.Idx → EReal) (x15 : S64x128.Idx → EReal) (x16 : S128x128.Idx → EReal)
      (x17 : S128.Idx → EReal) (x18 : S128x128.Idx → EReal) (x19 : S128.Idx → EReal) (x20 : S128x128.Idx → EReal)
      (x21 : S128.Idx → EReal) (x22 : S2x128x128.Idx → EReal) (x23 : S2x128.Idx → EReal) (x24 : S2x128x128.Idx → EReal)
      (x25 : S2x128.Idx → EReal) (p : Fin 4096) (q : Fin 128),
      Cert.Pay2.pay2 (rowBlock 4096 262144 128 t ht A0) (rowBlock 4096 262144 64 t ht KJ) x10 x11 x15 x16 x17 x18 x19 x20 x21
          (slab 0 x22) (srow 0 x23) (slab 0 x24) (srow 0 x25) (slab 1 x22) (srow 1 x23) (slab 1 x24) (srow 1 x25) (ix2 p q)
        = G A0 KJ x10 x11 x15 x16 x17 x18 x19 x20 x21 x22 x23 x24 x25 (ix2 (row 4096 262144 t ht p) q))
    (c : Dev nD) :
    (dat2 V c).arrAt 15 cfg2.N = G (V c main_arg0) (V c main_v14) (V c main_arg10) (V c main_arg11) (V c main_arg15) (V c main_arg16)
      (V c main_arg17) (V c main_arg18) (V c main_arg19) (V c main_arg20) (V c main_arg21) (V c main_arg22) (V c main_arg23)
      (V c main_arg24) (V c main_arg25) :=
  (dat2 V c).arrAt_eq_of_cover 15 (G (V c main_arg0) (V c main_v14) (V c main_arg10) (V c main_arg11) (V c main_arg15) (V c main_arg16)
      (V c main_arg17) (V c main_arg18) (V c main_arg19) (V c main_arg20) (V c main_arg21) (V c main_arg22) (V c main_arg23)
      (V c main_arg24) (V c main_arg25))
    (fun t _ => flushed2 V G hG c t) cover2

end Cert.KernelIdeal.Blocks

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LayersLib.lean ====
/-
  Row-local layers, read in one vocabulary.

  Every layer of the three kernels acts on a block of rows of its row-blocked operands exactly as the reference
  acts on the whole arrays: a product with a weight matrix is a sum over the contraction index of entries of ONE row,
  a bias is laid along every row, and the remaining operations are entrywise. This module names those layer forms
  on extended-real matrices (`mm`, `bias`, `silu`, and the reading of one layer of stacked weights), shows that a
  kernel's spelling and the host's spelling of each form denote it, and that each form commutes with taking a
  block of rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«156858_j62457414418909_2_alg».proof.Proof.Rows
import proofs.«156858_j62457414418909_2_alg».proof.Proof.LibPlainDot

noncomputable section

namespace Cert.Layers

open Idealize.ShloMosaic Idealize.ShloMosaic.ValueIdx Cert.Rows

/-- An `m × n` matrix of extended reals. -/
abbrev Mat (m n : Nat) : Type := (⟨2, ![m, n]⟩ : Shape).Idx → EReal
/-- A vector of `n` extended reals. -/
abbrev Row (n : Nat) : Type := (⟨1, ![n]⟩ : Shape).Idx → EReal

/-! ## The layer forms -/

/-- The matrix product: entry `(r, c)` is the sum over `k` of `X (r, k) · W (k, c)`. -/
def mm {m k n : Nat} (X : Mat m k) (W : Mat k n) : Mat m n :=
  fun j => ∑ c : Fin k, X (ix2 (j 0) c) * W (ix2 c (j 1))

/-- A vector laid along each of `m` rows. -/
def bias {n : Nat} (m : Nat) (b : Row n) : Mat m n := fun j => b (ix1 (j 1))

/-- `x · logistic x`, entrywise. -/
def silu {s : Shape} (x : s.Idx → EReal) : s.Idx → EReal := fun i => x i * Ideal.logistic (x i)

/-- Matrix `i` of a stack of two `128 × 128` matrices. -/
def wslab (i : Fin 2) (X : (⟨3, ![2, 128, 128]⟩ : Shape).Idx → EReal) : Mat 128 128 := fun j => X (ix3 i (j 0) (j 1))

/-- Row `i` of a `2 × 128` matrix. -/
def brow (i : Fin 2) (X : Mat 2 128) : Row 128 := fun j => X (ix2 i (j 0))

/-- Two matrices that agree at every `(p, q)` are equal. -/
theorem mat_ext {m n : Nat} {f g : Mat m n} (h : ∀ (p : Fin m) (q : Fin n), f (ix2 p q) = g (ix2 p q)) : f = g := by
  funext j
  have e : j = ix2 (j 0 : Fin m) (j 1 : Fin n) := eq_ix2 j
  rw [e]
  exact h _ _

/-- Two vectors that agree at every position are equal. -/
theorem row_ext {n : Nat} {f g : Row n} (h : ∀ q : Fin n, f (ix1 q) = g (ix1 q)) : f = g := by
  funext j
  have e : j = ix1 (j 0 : Fin n) := eq_ix1 j
  rw [e]
  exact h _

/-! ## Each form commutes with taking a block of rows -/

section Blocks
variable (B M : Nat) (t : Nat) (ht : (t + 1) * B ≤ M)

theorem mm_rowBlock {k n : Nat} (X : Mat M k) (W : Mat k n) :
    mm (rowBlock B M k t ht X) W = rowBlock B M n t ht (mm X W) := rfl

theorem add_bias_rowBlock {n : Nat} (X : Mat M n) (b : Row n) :
    addf (F := Ideal) (φ := .f32) (rowBlock B M n t ht X) (bias B b) = rowBlock B M n t ht (addf (F := Ideal) (φ := .f32) X (bias M b)) := rfl

theorem silu_rowBlock {n : Nat} (X : Mat M n) :
    silu (rowBlock B M n t ht X) = rowBlock B M n t ht (silu X) := rfl

theorem addf_rowBlock {n : Nat} (X Y : Mat M n) :
    addf (F := Ideal) (φ := .f32) (rowBlock B M n t ht X) (rowBlock B M n t ht Y)
      = rowBlock B M n t ht (addf (F := Ideal) (φ := .f32) X Y) := rfl

theorem mulf_rowBlock {n : Nat} (X Y : Mat M n) :
    mulf (F := Ideal) (φ := .f32) (rowBlock B M n t ht X) (rowBlock B M n t ht Y)
      = rowBlock B M n t ht (mulf (F := Ideal) (φ := .f32) X Y) := rfl

end Blocks

/-! ## A kernel's spellings -/

/-- A change of float format is the identity on extended reals. -/
theorem truncf_id {s : Shape} {φ ψ : FTy} (x : FVec Ideal s φ) (h : ψ.bits < φ.bits) :
    (truncf ψ x h : FVec Ideal s ψ) = x := rfl

/-- A kernel's matrix unit accumulating into the zero splat computes the product. -/
theorem matmul_eq_mm {b k n : Nat} {φ₁ φ₂ : FTy} (d : DotDims ⟨2, ![b, k]⟩ ⟨2, ![k, n]⟩ ⟨2, ![b, n]⟩)
    (hd : d = DotDims.plain b k n) (prec : Option ContractPrecision) (l : FVec Ideal ⟨2, ![b, k]⟩ φ₁)
    (r : FVec Ideal ⟨2, ![k, n]⟩ φ₂) :
    matmul d prec l r (constant ⟨2, ![b, n]⟩ .f32 0x00000000#32) = mm l r := by
  subst hd
  funext j
  exact LibPlainDot.matmul_zero_apply b k n prec l r j

/-- A kernel's `x · logistic x`. -/
theorem mulf_logistic_eq_silu {s : Shape} (x : FVec Ideal s .f32) : mulf x (logistic x) = silu x := rfl

/-- A vector cast to one row and broadcast down `m` rows is the vector laid along every row. -/
theorem broadcastTo_shapeCast_eq_bias {m n : Nat} (b : Row n) (h1 : (⟨1, ![n]⟩ : Shape).ShapeCasts ⟨2, ![1, n]⟩)
    (h2 : (⟨2, ![1, n]⟩ : Shape).Broadcasts ⟨2, ![m, n]⟩) :
    broadcastTo ⟨2, ![m, n]⟩ (shapeCast ⟨2, ![1, n]⟩ b h1) h2 = bias m b := by
  refine mat_ext fun p q => ?_
  rw [broadcastTo_1b_ab_apply, shapeCast_a_1a_apply]
  rfl

/-- One layer of a stack of matrices, loaded with its unit axis and cast to a matrix. -/
theorem shapeCast_slab_eq_wslab (i : Fin 2) (X : (⟨3, ![2, 128, 128]⟩ : Shape).Idx → EReal)
    (h : (⟨3, ![1, 128, 128]⟩ : Shape).ShapeCasts ⟨2, ![128, 128]⟩) :
    shapeCast ⟨2, ![128, 128]⟩ (slab i X) h = wslab i X := by
  refine mat_ext fun p q => ?_
  rw [shapeCast_1ab_ab_apply]
  rfl

/-- One row of a `2 × 128` matrix, loaded with its unit axis and cast to a vector. -/
theorem shapeCast_srow_eq_brow (i : Fin 2) (X : Mat 2 128) (h : (⟨2, ![1, 128]⟩ : Shape).ShapeCasts ⟨1, ![128]⟩) :
    shapeCast ⟨1, ![128]⟩ (srow i X) h = brow i X := by
  refine row_ext fun q => ?_
  rw [shapeCast_1a_a_apply]
  rfl

/-- A cast between equal shapes is the identity. -/
theorem shapeCast_self {s : Shape} (x : s.Idx → EReal) (h : s.ShapeCasts s) : shapeCast s x h = x := by
  funext j
  exact shapeCast_apply x h j j rfl

/-! ## The host's spellings -/

/-- The host's `dot_general` computes the product. -/
theorem dotGeneral_eq_mm {m k n : Nat} {φ₁ φ₂ : FTy} (D : DotDims ⟨2, ![m, k]⟩ ⟨2, ![k, n]⟩ ⟨2, ![m, n]⟩)
    (hD : D = DotDims.plain m k n) (prec : Option ContractPrecision) (l : FVec Ideal ⟨2, ![m, k]⟩ φ₁)
    (r : FVec Ideal ⟨2, ![k, n]⟩ φ₂) :
    Host.dotGeneral D prec l r = mm l r := by
  subst hD
  funext j
  exact LibPlainDot.dotGeneral_apply m k n prec .single l r j

/-- The word `0x3F800000` denotes one. -/
theorem ofBits_one_f32 : Ideal.ofBits .f32 0x3F800000#32 = 1 := by
  simp [Ideal.ofBits, Ideal.ieee, -EReal.coe_mul]; norm_num

/-- The host's expansion of `x · logistic x` into negate, exponential, add and divide, the constant one broadcast
    from a scalar. -/
theorem host_silu_eq_silu {s : Shape} (dims : Fin 0 → Fin s.rank) (h h' : (⟨0, ![]⟩ : Shape).BroadcastsInDim s dims)
    (x : FVec Ideal s .f32) :
    mulf x (Host.divf (broadcastInDim s dims h (constant (F := Ideal) ⟨0, ![]⟩ .f32 0x3F800000#32))
        (addf (broadcastInDim s dims h' (constant (F := Ideal) ⟨0, ![]⟩ .f32 0x3F800000#32)) (Host.exp (Host.negf x))))
      = silu x := by
  funext i
  show x i * Ideal.div (Ideal.ofBits .f32 0x3F800000#32) (Ideal.ofBits .f32 0x3F800000#32 + Ideal.exp (-(x i))) = _
  rw [ofBits_one_f32]
  rfl

/-- A vector broadcast to one row and then down `m` rows is the vector laid along every row. -/
theorem broadcastInDim_twice_eq_bias {m n : Nat} (hn : n ≠ 1) (b : Row n)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  refine mat_ext fun p q => ?_
  have e2 := broadcastInDim_apply _ h2 (broadcastInDim ⟨2, ![1, n]⟩ ![1] h1 b) (ix2 p q) (ix2 (0 : Fin 1) q) (fun a => match a with
      | ⟨0, _⟩ => by show 0 = if (1 : Nat) = 1 then 0 else p.val; rw [if_pos rfl]
      | ⟨1, _⟩ => by show q.val = if n = 1 then 0 else q.val; rw [if_neg hn])
  have e1 := broadcastInDim_apply _ h1 b (ix2 (0 : Fin 1) q) (ix1 q) (fun a => match a with
      | ⟨0, _⟩ => by show q.val = if n = 1 then 0 else q.val; rw [if_neg hn])
  exact e2.trans e1

/-- The host's slice of one layer of a stack of matrices, reshaped to a matrix. -/
theorem reshape_slice_eq_wslab (i : Fin 2) (X : (⟨3, ![2, 128, 128]⟩ : Shape).Idx → EReal)
    (hs : (⟨3, ![2, 128, 128]⟩ : Shape).Slices ![i.val, 0, 0] ⟨3, ![1, 128, 128]⟩)
    (h : (⟨3, ![1, 128, 128]⟩ : Shape).ShapeCasts ⟨2, ![128, 128]⟩) :
    shapeCast ⟨2, ![128, 128]⟩ (extractStridedSlice ⟨3, ![1, 128, 128]⟩ ![i.val, 0, 0] X hs) h = wslab i X := by
  refine mat_ext fun p q => ?_
  rw [shapeCast_1ab_ab_apply]
  exact extractStridedSlice_apply _ X hs (ix3 (0 : Fin 1) p q) (ix3 i p q) (fun a => match a with
      | ⟨0, _⟩ => by show i.val = i.val + 0; rfl
      | ⟨1, _⟩ => by show p.val = 0 + p.val; rw [Nat.zero_add]
      | ⟨2, _⟩ => by show q.val = 0 + q.val; rw [Nat.zero_add])

/-- The host's slice of one row of a `2 × 128` matrix, reshaped to a vector. -/
theorem reshape_slice_eq_brow (i : Fin 2) (X : Mat 2 128)
    (hs : (⟨2, ![2, 128]⟩ : Shape).Slices ![i.val, 0] ⟨2, ![1, 128]⟩)
    (h : (⟨2, ![1, 128]⟩ : Shape).ShapeCasts ⟨1, ![128]⟩) :
    shapeCast ⟨1, ![128]⟩ (extractStridedSlice ⟨2, ![1, 128]⟩ ![i.val, 0] X hs) h = brow i X := by
  refine row_ext fun q => ?_
  rw [shapeCast_1a_a_apply]
  exact extractStridedSlice_apply _ X hs (ix2 (0 : Fin 1) q) (ix2 i q) (fun a => match a with
      | ⟨0, _⟩ => by show i.val = i.val + 0; rfl
      | ⟨1, _⟩ => by show q.val = 0 + q.val; rw [Nat.zero_add])

end Cert.Layers

end
-- ==== Proof.Layers0.lean ====
/-
  The edge kernel's rows.

  On a block of rows the kernel forms `silu (x0 · w_kj + b_kj)`, multiplies it entrywise by the radial basis carried
  through its two weight matrices, multiplies by the down-projection and applies `silu` again. The reference does the
  same on the whole arrays. `edgeForm` is that expression in the layer forms; each side is read into it, and the
  forms commute with taking a block of rows.
-/
import proofs.«156858_j62457414418909_2_alg».proof.Proof.Gen.KernelIdeal.Skeleton
import proofs.«156858_j62457414418909_2_alg».proof.Proof.ReadP
import proofs.«156858_j62457414418909_2_alg».proof.Proof.LayersLib

noncomputable section

namespace Cert.Layers

open Idealize.ShloMosaic Idealize.ShloMosaic.ValueIdx Cert.Rows

/-- `silu ((silu (x0 · w_kj + b_kj) ∘ (rbf · w_rbf1 · w_rbf2)) · w_down)` on whole arrays. -/
def edgeForm (A0 : Mat 262144 128) (A1 : Mat 262144 6) (W6 : Mat 6 8) (W7 : Mat 8 128) (W12 : Mat 128 128)
    (b13 : Row 128) (W14 : Mat 128 64) : Mat 262144 64 :=
  silu (mm (mulf (F := Ideal) (φ := .f32) (silu (addf (F := Ideal) (φ := .f32) (mm A0 W12) (bias 262144 b13)))
    (mm (mm A1 W6) W7)) W14)

/-- The kernel's stored value on block `t` is block `t` of `edgeForm`. -/
theorem edge_block (t : Nat) (ht : (t + 1) * 4096 ≤ 262144)
    (A0 : FVec Ideal Cert.ReferenceIdeal.S262144x128 .f32) (A1 : FVec Ideal Cert.ReferenceIdeal.S262144x6 .f32) (W6 : FVec Ideal Cert.ReferenceIdeal.S6x8 .f32)
    (W7 : FVec Ideal Cert.ReferenceIdeal.S8x128 .f32) (W12 : FVec Ideal Cert.ReferenceIdeal.S128x128 .f32) (b13 : FVec Ideal Cert.ReferenceIdeal.S128 .f32)
    (W14 : FVec Ideal Cert.ReferenceIdeal.S128x64 .f32) :
    Cert.KernelIdeal.Gen.k0_pay1 (F := Ideal) (rowBlock 4096 262144 128 t ht A0) (rowBlock 4096 262144 6 t ht A1) W6 W7 W12 b13 W14
      = rowBlock 4096 262144 64 t ht (edgeForm A0 A1 W6 W7 W12 b13 W14) := by
  unfold Cert.KernelIdeal.Gen.k0_pay1 edgeForm
  simp only [truncf_id, matmul_eq_mm Cert.KernelIdeal.dot_S4096x6_S6x8_S4096x8_1_0_0_1_n_n rfl,
    matmul_eq_mm Cert.KernelIdeal.dot_S4096x8_S8x128_S4096x128_1_0_0_1_n_n rfl,
    matmul_eq_mm Cert.KernelIdeal.dot_S4096x128_S128x128_S4096x128_1_0_0_1_n_n rfl,
    matmul_eq_mm Cert.KernelIdeal.dot_S4096x128_S128x64_S4096x64_1_0_0_1_n_n rfl,
    broadcastTo_shapeCast_eq_bias, mulf_logistic_eq_silu, mm_rowBlock, add_bias_rowBlock, silu_rowBlock, mulf_rowBlock]

/-- The reference's stage is `edgeForm`. -/
theorem edge_ref (A0 : FVec Ideal Cert.ReferenceIdeal.S262144x128 .f32) (A1 : FVec Ideal Cert.ReferenceIdeal.S262144x6 .f32) (W6 : FVec Ideal Cert.ReferenceIdeal.S6x8 .f32)
    (W7 : FVec Ideal Cert.ReferenceIdeal.S8x128 .f32) (W12 : FVec Ideal Cert.ReferenceIdeal.S128x128 .f32) (b13 : FVec Ideal Cert.ReferenceIdeal.S128 .f32)
    (W14 : FVec Ideal Cert.ReferenceIdeal.S128x64 .f32) :
    Cert.ReferenceIdeal.ReadP.val_main_v16 (F := Ideal) A0 A1 W6 W7 W12 b13 W14 = edgeForm A0 A1 W6 W7 W12 b13 W14 := by
  unfold edgeForm
  simp only [Cert.ReferenceIdeal.ReadP.val_main_v16, Cert.ReferenceIdeal.ReadP.val_main_call2_v5, Cert.ReferenceIdeal.ReadP.val_main_call2_v4, Cert.ReferenceIdeal.ReadP.val_main_call2_cst_0,
    Cert.ReferenceIdeal.ReadP.val_main_call2_v3, Cert.ReferenceIdeal.ReadP.val_main_call2_v2, Cert.ReferenceIdeal.ReadP.val_main_call2_cst, Cert.ReferenceIdeal.ReadP.val_main_call2_v1,
    Cert.ReferenceIdeal.ReadP.val_main_call2_v0, Cert.ReferenceIdeal.ReadP.val_main_v15, Cert.ReferenceIdeal.ReadP.val_main_v14, Cert.ReferenceIdeal.ReadP.val_main_v13, Cert.ReferenceIdeal.ReadP.val_main_call1_v5,
    Cert.ReferenceIdeal.ReadP.val_main_call1_v4, Cert.ReferenceIdeal.ReadP.val_main_call1_cst_0, Cert.ReferenceIdeal.ReadP.val_main_call1_v3, Cert.ReferenceIdeal.ReadP.val_main_call1_v2,
    Cert.ReferenceIdeal.ReadP.val_main_call1_cst, Cert.ReferenceIdeal.ReadP.val_main_call1_v1, Cert.ReferenceIdeal.ReadP.val_main_call1_v0, Cert.ReferenceIdeal.ReadP.val_main_v12, Cert.ReferenceIdeal.ReadP.val_main_v11,
    Cert.ReferenceIdeal.ReadP.val_main_v10, Cert.ReferenceIdeal.ReadP.val_main_v9, Cert.ReferenceIdeal.ReadP.val_main_v1, Cert.ReferenceIdeal.ReadP.val_main_v0,
    dotGeneral_eq_mm Cert.ReferenceIdeal.dot_S262144x6_S6x8_S262144x8_1_0_0_1_n_n rfl,
    dotGeneral_eq_mm Cert.ReferenceIdeal.dot_S262144x8_S8x128_S262144x128_1_0_0_1_n_n rfl,
    dotGeneral_eq_mm Cert.ReferenceIdeal.dot_S262144x128_S128x128_S262144x128_1_0_0_1_n_n rfl,
    dotGeneral_eq_mm Cert.ReferenceIdeal.dot_S262144x128_S128x64_S262144x64_1_0_0_1_n_n rfl,
    host_silu_eq_silu, broadcastInDim_twice_eq_bias (n := 128) (by decide)]

theorem edge_rows (t : Nat) (ht : (t + 1) * 4096 ≤ 262144)
    (A0 : FVec Ideal Cert.ReferenceIdeal.S262144x128 .f32) (A1 : FVec Ideal Cert.ReferenceIdeal.S262144x6 .f32) (W6 : FVec Ideal Cert.ReferenceIdeal.S6x8 .f32)
    (W7 : FVec Ideal Cert.ReferenceIdeal.S8x128 .f32) (W12 : FVec Ideal Cert.ReferenceIdeal.S128x128 .f32) (b13 : FVec Ideal Cert.ReferenceIdeal.S128 .f32)
    (W14 : FVec Ideal Cert.ReferenceIdeal.S128x64 .f32) (p : Fin 4096) (q : Fin 64) :
    Cert.KernelIdeal.Gen.k0_pay1 (F := Ideal) (rowBlock 4096 262144 128 t ht A0) (rowBlock 4096 262144 6 t ht A1) W6 W7 W12 b13 W14 (ix2 p q)
      = Cert.ReferenceIdeal.ReadP.val_main_v16 (F := Ideal) A0 A1 W6 W7 W12 b13 W14 (ix2 (row 4096 262144 t ht p) q) := by
  rw [edge_block, edge_ref]
  rfl

end Cert.Layers

end
-- ==== Proof.Layers1.lean ====
/-
  The triplet kernel's rows.

  The kernel multiplies a block of rows of the spherical basis by two weight matrices in turn; the reference
  multiplies the whole array by the same two matrices. Both are the product form `mm` twice, and `mm` commutes with
  taking a block of rows.
-/
import proofs.«156858_j62457414418909_2_alg».proof.Proof.Gen.KernelIdeal.Skeleton
import proofs.«156858_j62457414418909_2_alg».proof.Proof.ReadP
import proofs.«156858_j62457414418909_2_alg».proof.Proof.LayersLib

noncomputable section

namespace Cert.Layers

open Idealize.ShloMosaic Idealize.ShloMosaic.ValueIdx Cert.Rows

/-- The kernel's stored value on block `t` is block `t` of the twofold product. -/
theorem trip_block (t : Nat) (ht : (t + 1) * 8192 ≤ 2097152)
    (A2 : FVec Ideal Cert.ReferenceIdeal.S2097152x42 .f32) (W8 : FVec Ideal Cert.ReferenceIdeal.S42x8 .f32)
    (W9 : FVec Ideal Cert.ReferenceIdeal.S8x64 .f32) :
    Cert.KernelIdeal.Gen.k1_pay1 (F := Ideal) (rowBlock 8192 2097152 42 t ht A2) W8 W9
      = rowBlock 8192 2097152 64 t ht (mm (mm A2 W8) W9) := by
  unfold Cert.KernelIdeal.Gen.k1_pay1
  simp only [truncf_id, matmul_eq_mm Cert.KernelIdeal.dot_S8192x42_S42x8_S8192x8_1_0_0_1_n_n rfl,
    matmul_eq_mm Cert.KernelIdeal.dot_S8192x8_S8x64_S8192x64_1_0_0_1_n_n rfl, mm_rowBlock]

/-- The reference's stage is the twofold product. -/
theorem trip_ref (A2 : FVec Ideal Cert.ReferenceIdeal.S2097152x42 .f32) (W8 : FVec Ideal Cert.ReferenceIdeal.S42x8 .f32)
    (W9 : FVec Ideal Cert.ReferenceIdeal.S8x64 .f32) :
    Cert.ReferenceIdeal.ReadP.val_main_v3 (F := Ideal) A2 W8 W9 = mm (mm A2 W8) W9 := by
  unfold Cert.ReferenceIdeal.ReadP.val_main_v3 Cert.ReferenceIdeal.ReadP.val_main_v2
  rw [dotGeneral_eq_mm Cert.ReferenceIdeal.dot_S2097152x8_S8x64_S2097152x64_1_0_0_1_n_n rfl,
    dotGeneral_eq_mm Cert.ReferenceIdeal.dot_S2097152x42_S42x8_S2097152x8_1_0_0_1_n_n rfl]

theorem trip_rows (t : Nat) (ht : (t + 1) * 8192 ≤ 2097152)
    (A2 : FVec Ideal Cert.ReferenceIdeal.S2097152x42 .f32) (W8 : FVec Ideal Cert.ReferenceIdeal.S42x8 .f32)
    (W9 : FVec Ideal Cert.ReferenceIdeal.S8x64 .f32) (p : Fin 8192) (q : Fin 64) :
    Cert.KernelIdeal.Gen.k1_pay1 (F := Ideal) (rowBlock 8192 2097152 42 t ht A2) W8 W9 (ix2 p q)
      = Cert.ReferenceIdeal.ReadP.val_main_v3 (F := Ideal) A2 W8 W9 (ix2 (row 8192 2097152 t ht p) q) := by
  rw [trip_block, trip_ref]
  rfl

end Cert.Layers

end
-- ==== Proof.Layers2.lean ====
/-
  The final kernel's rows.

  On a block of rows the kernel forms `x_ji = silu (x0 · w_ji + b_ji)`, adds `silu (kj · w_up)` (`kj` the block of
  aggregated triplet messages), applies one residual layer `x ↦ x + silu (silu (x · w₁ + b₁) · w₂ + b₂)`, the dense
  layer `silu (· w_fin + b_fin)`, the skip connection `x0 + ·`, and two more residual layers whose weights are the
  two layers of four stacked arrays. The reference does the same on the whole arrays, slicing the stacks. `tailRef`
  is that expression in the layer forms, of ANY array in place of the aggregated messages; the reference's last stage
  is `tailRef` of its own aggregate, and the kernel's stored value on a block is the block of `tailRef`.
-/
import proofs.«156858_j62457414418909_2_alg».proof.Proof.Gen.KernelIdeal.Skeleton
import proofs.«156858_j62457414418909_2_alg».proof.Proof.ReadP
import proofs.«156858_j62457414418909_2_alg».proof.Proof.LayersLib
import proofs.«156858_j62457414418909_2_alg».proof.Proof.Pay2

noncomputable section

namespace Cert.Layers

open Idealize.ShloMosaic Idealize.ShloMosaic.ValueIdx Cert.Rows

/-! ## The host's slices of the stacked weights, at each of the two layers -/

theorem reshape_slice0_eq_wslab (X : (⟨3, ![2, 128, 128]⟩ : Shape).Idx → EReal)
    (hs : (⟨3, ![2, 128, 128]⟩ : Shape).Slices ![0, 0, 0] ⟨3, ![1, 128, 128]⟩)
    (h : (⟨3, ![1, 128, 128]⟩ : Shape).ShapeCasts ⟨2, ![128, 128]⟩) :
    shapeCast ⟨2, ![128, 128]⟩ (extractStridedSlice ⟨3, ![1, 128, 128]⟩ ![0, 0, 0] X hs) h = wslab 0 X :=
  reshape_slice_eq_wslab 0 X hs h

theorem reshape_slice1_eq_wslab (X : (⟨3, ![2, 128, 128]⟩ : Shape).Idx → EReal)
    (hs : (⟨3, ![2, 128, 128]⟩ : Shape).Slices ![1, 0, 0] ⟨3, ![1, 128, 128]⟩)
    (h : (⟨3, ![1, 128, 128]⟩ : Shape).ShapeCasts ⟨2, ![128, 128]⟩) :
    shapeCast ⟨2, ![128, 128]⟩ (extractStridedSlice ⟨3, ![1, 128, 128]⟩ ![1, 0, 0] X hs) h = wslab 1 X :=
  reshape_slice_eq_wslab 1 X hs h

theorem reshape_slice0_eq_brow (X : Mat 2 128) (hs : (⟨2, ![2, 128]⟩ : Shape).Slices ![0, 0] ⟨2, ![1, 128]⟩)
    (h : (⟨2, ![1, 128]⟩ : Shape).ShapeCasts ⟨1, ![128]⟩) :
    shapeCast ⟨1, ![128]⟩ (extractStridedSlice ⟨2, ![1, 128]⟩ ![0, 0] X hs) h = brow 0 X :=
  reshape_slice_eq_brow 0 X hs h

theorem reshape_slice1_eq_brow (X : Mat 2 128) (hs : (⟨2, ![2, 128]⟩ : Shape).Slices ![1, 0] ⟨2, ![1, 128]⟩)
    (h : (⟨2, ![1, 128]⟩ : Shape).ShapeCasts ⟨1, ![128]⟩) :
    shapeCast ⟨1, ![128]⟩ (extractStridedSlice ⟨2, ![1, 128]⟩ ![1, 0] X hs) h = brow 1 X :=
  reshape_slice_eq_brow 1 X hs h

/-! ## The tail of the reference -/

/-- The reference's operations %28 … %85 (the up-projection and its `silu`, the sum with `x_ji`, the residual layer,
    the final dense layer, the skip connection and the two stacked residual layers) applied to ANY `[262144, 64]`
    array `KJ` in place of the aggregated messages %27. -/
def tailRef (x0 : FVec Ideal Cert.ReferenceIdeal.S262144x128 .f32) (KJ : FVec Ideal Cert.ReferenceIdeal.S262144x64 .f32) (x10 : FVec Ideal Cert.ReferenceIdeal.S128x128 .f32) (x11 : FVec Ideal Cert.ReferenceIdeal.S128 .f32) (x15 : FVec Ideal Cert.ReferenceIdeal.S64x128 .f32) (x16 : FVec Ideal Cert.ReferenceIdeal.S128x128 .f32) (x17 : FVec Ideal Cert.ReferenceIdeal.S128 .f32) (x18 : FVec Ideal Cert.ReferenceIdeal.S128x128 .f32) (x19 : FVec Ideal Cert.ReferenceIdeal.S128 .f32) (x20 : FVec Ideal Cert.ReferenceIdeal.S128x128 .f32) (x21 : FVec Ideal Cert.ReferenceIdeal.S128 .f32) (x22 : FVec Ideal Cert.ReferenceIdeal.S2x128x128 .f32) (x23 : FVec Ideal Cert.ReferenceIdeal.S2x128 .f32) (x24 : FVec Ideal Cert.ReferenceIdeal.S2x128x128 .f32) (x25 : FVec Ideal Cert.ReferenceIdeal.S2x128 .f32) : FVec Ideal Cert.ReferenceIdeal.S262144x128 .f32 :=
  let v30 : Mat 262144 128 := addf (F := Ideal) (φ := .f32) (silu (addf (F := Ideal) (φ := .f32) (mm x0 x10) (bias 262144 x11))) (silu (mm KJ x15))
  let v41 : Mat 262144 128 :=
    addf (F := Ideal) (φ := .f32) v30 (silu (addf (F := Ideal) (φ := .f32) (mm (silu (addf (F := Ideal) (φ := .f32) (mm v30 x16) (bias 262144 x17))) x18) (bias 262144 x19)))
  let v47 : Mat 262144 128 := addf (F := Ideal) (φ := .f32) x0 (silu (addf (F := Ideal) (φ := .f32) (mm v41 x20) (bias 262144 x21)))
  let v66 : Mat 262144 128 :=
    addf (F := Ideal) (φ := .f32) v47 (silu (addf (F := Ideal) (φ := .f32) (mm (silu (addf (F := Ideal) (φ := .f32) (mm v47 (wslab 0 x22)) (bias 262144 (brow 0 x23)))) (wslab 0 x24))
      (bias 262144 (brow 0 x25))))
  let v85 : Mat 262144 128 :=
    addf (F := Ideal) (φ := .f32) v66 (silu (addf (F := Ideal) (φ := .f32) (mm (silu (addf (F := Ideal) (φ := .f32) (mm v66 (wslab 1 x22)) (bias 262144 (brow 1 x23)))) (wslab 1 x24))
      (bias 262144 (brow 1 x25))))
  v85

/-- The reference's last stage is `tailRef` of its own aggregate. -/
theorem tailRef_eq (x0 : (⟨Cert.ReferenceIdeal.S262144x128, .f32⟩ : BufTy).Contents (Elt Ideal)) (x1 : (⟨Cert.ReferenceIdeal.S262144x6, .f32⟩ : BufTy).Contents (Elt Ideal)) (x2 : (⟨Cert.ReferenceIdeal.S2097152x42, .f32⟩ : BufTy).Contents (Elt Ideal)) (x3 : (⟨Cert.ReferenceIdeal.S2097152, .i32⟩ : BufTy).Contents (Elt Ideal)) (x4 : (⟨Cert.ReferenceIdeal.S2097152, .i32⟩ : BufTy).Contents (Elt Ideal)) (x6 : (⟨Cert.ReferenceIdeal.S6x8, .f32⟩ : BufTy).Contents (Elt Ideal)) (x7 : (⟨Cert.ReferenceIdeal.S8x128, .f32⟩ : BufTy).Contents (Elt Ideal)) (x8 : (⟨Cert.ReferenceIdeal.S42x8, .f32⟩ : BufTy).Contents (Elt Ideal)) (x9 : (⟨Cert.ReferenceIdeal.S8x64, .f32⟩ : BufTy).Contents (Elt Ideal)) (x10 : (⟨Cert.ReferenceIdeal.S128x128, .f32⟩ : BufTy).Contents (Elt Ideal)) (x11 : (⟨Cert.ReferenceIdeal.S128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x14 : (⟨Cert.ReferenceIdeal.S128x64, .f32⟩ : BufTy).Contents (Elt Ideal)) (x15 : (⟨Cert.ReferenceIdeal.S64x128, .f32⟩ : BufTy).Contents (Elt Ideal)) (x16 : (⟨Cert.ReferenceIdeal.S128x128, .f32⟩ : BufTy).Contents (Elt Ideal)) (x17 : (⟨Cert.ReferenceIdeal.S128, .f32⟩ : BufTy).Contents (Elt Ideal)) (x18 : (⟨Cert.ReferenceIdeal.S128x128, .f32⟩ : BufTy).Contents (Elt Ideal)) (x19 : (⟨Cert.ReferenceIdeal.S128, .f32⟩ : BufTy).Contents (Elt Ideal)) (x20 : (⟨Cert.ReferenceIdeal.S128x128, .f32⟩ : BufTy).Contents (Elt Ideal)) (x21 : (⟨Cert.ReferenceIdeal.S128, .f32⟩ : BufTy).Contents (Elt Ideal)) (x22 : (⟨Cert.ReferenceIdeal.S2x128x128, .f32⟩ : BufTy).Contents (Elt Ideal)) (x23 : (⟨Cert.ReferenceIdeal.S2x128, .f32⟩ : BufTy).Contents (Elt Ideal)) (x24 : (⟨Cert.ReferenceIdeal.S2x128x128, .f32⟩ : BufTy).Contents (Elt Ideal)) (x25 : (⟨Cert.ReferenceIdeal.S2x128, .f32⟩ : BufTy).Contents (Elt Ideal)) :
    Cert.ReferenceIdeal.ReadP.val_main_v85 (F := Ideal) x0 x1 x2 x3 x4 x6 x7 x8 x9 x10 x11 x12 x13 x14 x15 x16 x17 x18 x19 x20 x21 x22 x23 x24 x25
      = tailRef x0 (Cert.ReferenceIdeal.ReadP.val_main_v27 (F := Ideal) x0 x1 x2 x3 x4 x6 x7 x8 x9 x12 x13 x14) x10 x11 x15 x16 x17 x18 x19 x20 x21 x22 x23 x24 x25 := by
  unfold tailRef
  simp only [Cert.ReferenceIdeal.ReadP.val_main_v4, Cert.ReferenceIdeal.ReadP.val_main_v5, Cert.ReferenceIdeal.ReadP.val_main_v6, Cert.ReferenceIdeal.ReadP.val_main_v7,
    Cert.ReferenceIdeal.ReadP.val_main_call0_v0, Cert.ReferenceIdeal.ReadP.val_main_call0_v1, Cert.ReferenceIdeal.ReadP.val_main_call0_cst, Cert.ReferenceIdeal.ReadP.val_main_call0_v2,
    Cert.ReferenceIdeal.ReadP.val_main_call0_v3, Cert.ReferenceIdeal.ReadP.val_main_call0_cst_0, Cert.ReferenceIdeal.ReadP.val_main_call0_v4, Cert.ReferenceIdeal.ReadP.val_main_call0_v5,
    Cert.ReferenceIdeal.ReadP.val_main_v8, Cert.ReferenceIdeal.ReadP.val_main_v28, Cert.ReferenceIdeal.ReadP.val_main_call3_v0, Cert.ReferenceIdeal.ReadP.val_main_call3_v1,
    Cert.ReferenceIdeal.ReadP.val_main_call3_cst, Cert.ReferenceIdeal.ReadP.val_main_call3_v2, Cert.ReferenceIdeal.ReadP.val_main_call3_v3, Cert.ReferenceIdeal.ReadP.val_main_call3_cst_0,
    Cert.ReferenceIdeal.ReadP.val_main_call3_v4, Cert.ReferenceIdeal.ReadP.val_main_call3_v5, Cert.ReferenceIdeal.ReadP.val_main_v29, Cert.ReferenceIdeal.ReadP.val_main_v30,
    Cert.ReferenceIdeal.ReadP.val_main_v31, Cert.ReferenceIdeal.ReadP.val_main_v32, Cert.ReferenceIdeal.ReadP.val_main_v33, Cert.ReferenceIdeal.ReadP.val_main_v34,
    Cert.ReferenceIdeal.ReadP.val_main_call4_v0, Cert.ReferenceIdeal.ReadP.val_main_call4_v1, Cert.ReferenceIdeal.ReadP.val_main_call4_cst, Cert.ReferenceIdeal.ReadP.val_main_call4_v2,
    Cert.ReferenceIdeal.ReadP.val_main_call4_v3, Cert.ReferenceIdeal.ReadP.val_main_call4_cst_0, Cert.ReferenceIdeal.ReadP.val_main_call4_v4, Cert.ReferenceIdeal.ReadP.val_main_call4_v5,
    Cert.ReferenceIdeal.ReadP.val_main_v35, Cert.ReferenceIdeal.ReadP.val_main_v36, Cert.ReferenceIdeal.ReadP.val_main_v37, Cert.ReferenceIdeal.ReadP.val_main_v38,
    Cert.ReferenceIdeal.ReadP.val_main_v39, Cert.ReferenceIdeal.ReadP.val_main_call5_v0, Cert.ReferenceIdeal.ReadP.val_main_call5_v1, Cert.ReferenceIdeal.ReadP.val_main_call5_cst,
    Cert.ReferenceIdeal.ReadP.val_main_call5_v2, Cert.ReferenceIdeal.ReadP.val_main_call5_v3, Cert.ReferenceIdeal.ReadP.val_main_call5_cst_0, Cert.ReferenceIdeal.ReadP.val_main_call5_v4,
    Cert.ReferenceIdeal.ReadP.val_main_call5_v5, Cert.ReferenceIdeal.ReadP.val_main_v40, Cert.ReferenceIdeal.ReadP.val_main_v41, Cert.ReferenceIdeal.ReadP.val_main_v42,
    Cert.ReferenceIdeal.ReadP.val_main_v43, Cert.ReferenceIdeal.ReadP.val_main_v44, Cert.ReferenceIdeal.ReadP.val_main_v45, Cert.ReferenceIdeal.ReadP.val_main_call6_v0,
    Cert.ReferenceIdeal.ReadP.val_main_call6_v1, Cert.ReferenceIdeal.ReadP.val_main_call6_cst, Cert.ReferenceIdeal.ReadP.val_main_call6_v2, Cert.ReferenceIdeal.ReadP.val_main_call6_v3,
    Cert.ReferenceIdeal.ReadP.val_main_call6_cst_0, Cert.ReferenceIdeal.ReadP.val_main_call6_v4, Cert.ReferenceIdeal.ReadP.val_main_call6_v5, Cert.ReferenceIdeal.ReadP.val_main_v46,
    Cert.ReferenceIdeal.ReadP.val_main_v47, Cert.ReferenceIdeal.ReadP.val_main_v48, Cert.ReferenceIdeal.ReadP.val_main_v49, Cert.ReferenceIdeal.ReadP.val_main_v50,
    Cert.ReferenceIdeal.ReadP.val_main_v51, Cert.ReferenceIdeal.ReadP.val_main_v52, Cert.ReferenceIdeal.ReadP.val_main_v53, Cert.ReferenceIdeal.ReadP.val_main_v54,
    Cert.ReferenceIdeal.ReadP.val_main_v55, Cert.ReferenceIdeal.ReadP.val_main_call7_v0, Cert.ReferenceIdeal.ReadP.val_main_call7_v1, Cert.ReferenceIdeal.ReadP.val_main_call7_cst,
    Cert.ReferenceIdeal.ReadP.val_main_call7_v2, Cert.ReferenceIdeal.ReadP.val_main_call7_v3, Cert.ReferenceIdeal.ReadP.val_main_call7_cst_0, Cert.ReferenceIdeal.ReadP.val_main_call7_v4,
    Cert.ReferenceIdeal.ReadP.val_main_call7_v5, Cert.ReferenceIdeal.ReadP.val_main_v56, Cert.ReferenceIdeal.ReadP.val_main_v57, Cert.ReferenceIdeal.ReadP.val_main_v58,
    Cert.ReferenceIdeal.ReadP.val_main_v59, Cert.ReferenceIdeal.ReadP.val_main_v60, Cert.ReferenceIdeal.ReadP.val_main_v61, Cert.ReferenceIdeal.ReadP.val_main_v62,
    Cert.ReferenceIdeal.ReadP.val_main_v63, Cert.ReferenceIdeal.ReadP.val_main_v64, Cert.ReferenceIdeal.ReadP.val_main_call8_v0, Cert.ReferenceIdeal.ReadP.val_main_call8_v1,
    Cert.ReferenceIdeal.ReadP.val_main_call8_cst, Cert.ReferenceIdeal.ReadP.val_main_call8_v2, Cert.ReferenceIdeal.ReadP.val_main_call8_v3, Cert.ReferenceIdeal.ReadP.val_main_call8_cst_0,
    Cert.ReferenceIdeal.ReadP.val_main_call8_v4, Cert.ReferenceIdeal.ReadP.val_main_call8_v5, Cert.ReferenceIdeal.ReadP.val_main_v65, Cert.ReferenceIdeal.ReadP.val_main_v66,
    Cert.ReferenceIdeal.ReadP.val_main_v67, Cert.ReferenceIdeal.ReadP.val_main_v68, Cert.ReferenceIdeal.ReadP.val_main_v69, Cert.ReferenceIdeal.ReadP.val_main_v70,
    Cert.ReferenceIdeal.ReadP.val_main_v71, Cert.ReferenceIdeal.ReadP.val_main_v72, Cert.ReferenceIdeal.ReadP.val_main_v73, Cert.ReferenceIdeal.ReadP.val_main_v74,
    Cert.ReferenceIdeal.ReadP.val_main_call9_v0, Cert.ReferenceIdeal.ReadP.val_main_call9_v1, Cert.ReferenceIdeal.ReadP.val_main_call9_cst, Cert.ReferenceIdeal.ReadP.val_main_call9_v2,
    Cert.ReferenceIdeal.ReadP.val_main_call9_v3, Cert.ReferenceIdeal.ReadP.val_main_call9_cst_0, Cert.ReferenceIdeal.ReadP.val_main_call9_v4, Cert.ReferenceIdeal.ReadP.val_main_call9_v5,
    Cert.ReferenceIdeal.ReadP.val_main_v75, Cert.ReferenceIdeal.ReadP.val_main_v76, Cert.ReferenceIdeal.ReadP.val_main_v77, Cert.ReferenceIdeal.ReadP.val_main_v78,
    Cert.ReferenceIdeal.ReadP.val_main_v79, Cert.ReferenceIdeal.ReadP.val_main_v80, Cert.ReferenceIdeal.ReadP.val_main_v81, Cert.ReferenceIdeal.ReadP.val_main_v82,
    Cert.ReferenceIdeal.ReadP.val_main_v83, Cert.ReferenceIdeal.ReadP.val_main_call10_v0, Cert.ReferenceIdeal.ReadP.val_main_call10_v1, Cert.ReferenceIdeal.ReadP.val_main_call10_cst,
    Cert.ReferenceIdeal.ReadP.val_main_call10_v2, Cert.ReferenceIdeal.ReadP.val_main_call10_v3, Cert.ReferenceIdeal.ReadP.val_main_call10_cst_0, Cert.ReferenceIdeal.ReadP.val_main_call10_v4,
    Cert.ReferenceIdeal.ReadP.val_main_call10_v5, Cert.ReferenceIdeal.ReadP.val_main_v84, Cert.ReferenceIdeal.ReadP.val_main_v85,
    dotGeneral_eq_mm Cert.ReferenceIdeal.dot_S262144x128_S128x128_S262144x128_1_0_0_1_n_n rfl,
    dotGeneral_eq_mm Cert.ReferenceIdeal.dot_S262144x64_S64x128_S262144x128_1_0_0_1_n_n rfl,
    host_silu_eq_silu, broadcastInDim_twice_eq_bias (n := 128) (by decide),
    reshape_slice0_eq_wslab, reshape_slice1_eq_wslab, reshape_slice0_eq_brow, reshape_slice1_eq_brow]

/-- The kernel's stored value on block `t` is block `t` of `tailRef`. -/
theorem final_block (t : Nat) (ht : (t + 1) * 4096 ≤ 262144) (A0 : FVec Ideal Cert.ReferenceIdeal.S262144x128 .f32) (KJ : FVec Ideal Cert.ReferenceIdeal.S262144x64 .f32) (x10 : FVec Ideal Cert.ReferenceIdeal.S128x128 .f32) (x11 : FVec Ideal Cert.ReferenceIdeal.S128 .f32) (x15 : FVec Ideal Cert.ReferenceIdeal.S64x128 .f32) (x16 : FVec Ideal Cert.ReferenceIdeal.S128x128 .f32) (x17 : FVec Ideal Cert.ReferenceIdeal.S128 .f32) (x18 : FVec Ideal Cert.ReferenceIdeal.S128x128 .f32) (x19 : FVec Ideal Cert.ReferenceIdeal.S128 .f32) (x20 : FVec Ideal Cert.ReferenceIdeal.S128x128 .f32) (x21 : FVec Ideal Cert.ReferenceIdeal.S128 .f32) (x22 : FVec Ideal Cert.ReferenceIdeal.S2x128x128 .f32) (x23 : FVec Ideal Cert.ReferenceIdeal.S2x128 .f32) (x24 : FVec Ideal Cert.ReferenceIdeal.S2x128x128 .f32) (x25 : FVec Ideal Cert.ReferenceIdeal.S2x128 .f32) :
    Cert.Pay2.pay2 (rowBlock 4096 262144 128 t ht A0) (rowBlock 4096 262144 64 t ht KJ) x10 x11 x15 x16 x17 x18 x19 x20 x21
        (slab 0 x22) (srow 0 x23) (slab 0 x24) (srow 0 x25) (slab 1 x22) (srow 1 x23) (slab 1 x24) (srow 1 x25)
      = rowBlock 4096 262144 128 t ht (tailRef A0 KJ x10 x11 x15 x16 x17 x18 x19 x20 x21 x22 x23 x24 x25) := by
  unfold Cert.Pay2.pay2 Cert.KernelIdeal.Gen.k2_pay1 Cert.KernelIdeal.Gen.k2_pay5 Cert.KernelIdeal.Gen.k2_pay4 Cert.KernelIdeal.Gen.k2_pay6 Cert.KernelIdeal.Gen.k2_pay3
    Cert.KernelIdeal.Gen.k2_pay2 tailRef
  simp only [truncf_id, shapeCast_self, matmul_eq_mm Cert.KernelIdeal.dot_S4096x128_S128x128_S4096x128_1_0_0_1_n_n rfl,
    matmul_eq_mm Cert.KernelIdeal.dot_S4096x64_S64x128_S4096x128_1_0_0_1_n_n rfl, shapeCast_slab_eq_wslab, shapeCast_srow_eq_brow,
    broadcastTo_shapeCast_eq_bias, mulf_logistic_eq_silu, mm_rowBlock, add_bias_rowBlock, silu_rowBlock, addf_rowBlock]

theorem final_rows (t : Nat) (ht : (t + 1) * 4096 ≤ 262144) (A0 : FVec Ideal Cert.ReferenceIdeal.S262144x128 .f32) (KJ : FVec Ideal Cert.ReferenceIdeal.S262144x64 .f32) (x10 : FVec Ideal Cert.ReferenceIdeal.S128x128 .f32) (x11 : FVec Ideal Cert.ReferenceIdeal.S128 .f32) (x15 : FVec Ideal Cert.ReferenceIdeal.S64x128 .f32) (x16 : FVec Ideal Cert.ReferenceIdeal.S128x128 .f32) (x17 : FVec Ideal Cert.ReferenceIdeal.S128 .f32) (x18 : FVec Ideal Cert.ReferenceIdeal.S128x128 .f32) (x19 : FVec Ideal Cert.ReferenceIdeal.S128 .f32) (x20 : FVec Ideal Cert.ReferenceIdeal.S128x128 .f32) (x21 : FVec Ideal Cert.ReferenceIdeal.S128 .f32) (x22 : FVec Ideal Cert.ReferenceIdeal.S2x128x128 .f32) (x23 : FVec Ideal Cert.ReferenceIdeal.S2x128 .f32) (x24 : FVec Ideal Cert.ReferenceIdeal.S2x128x128 .f32) (x25 : FVec Ideal Cert.ReferenceIdeal.S2x128 .f32) (p : Fin 4096) (q : Fin 128) :
    Cert.Pay2.pay2 (rowBlock 4096 262144 128 t ht A0) (rowBlock 4096 262144 64 t ht KJ) x10 x11 x15 x16 x17 x18 x19 x20 x21
        (slab 0 x22) (srow 0 x23) (slab 0 x24) (srow 0 x25) (slab 1 x22) (srow 1 x23) (slab 1 x24) (srow 1 x25) (ix2 p q)
      = tailRef A0 KJ x10 x11 x15 x16 x17 x18 x19 x20 x21 x22 x23 x24 x25 (ix2 (row 4096 262144 t ht p) q) := by
  rw [final_block]
  rfl

end Cert.Layers

end
-- ==== Proof.Layers.lean ====
/-
  The three kernels' layers, block by block: `edge_rows`, `trip_rows`, `tailRef`, `tailRef_eq`, `final_rows`
  (namespace `Cert.Layers`), each saying that a kernel's stored value on a block of rows is the same rows of the
  reference's stage.
-/
import proofs.«156858_j62457414418909_2_alg».proof.Proof.Layers0
import proofs.«156858_j62457414418909_2_alg».proof.Proof.Layers1
import proofs.«156858_j62457414418909_2_alg».proof.Proof.Layers2
-- ==== Proof.lean ====
/-
  The idealized kernel against the idealized reference: a directional message-passing interaction block.

  Both programs compute, for 262144 directed edges and 2097152 triplets, at the extended reals:
    rbf_e = (rbf · w_rbf1) · w_rbf2,  sbf_t = (sbf · w_sbf1) · w_sbf2,
    x_kj  = silu(silu(x0 · w_kj + b_kj) ∘ rbf_e) · w_down)  per edge,
    agg   = scatter-add over id_reduce_ji of  x_kj[id_expand_kj] ∘ sbf_t   (index wrap, row gather, product, row scatter),
    x     = the dense stack on  silu(x0 · w_ji + b_ji) + silu(agg · w_up):  one residual layer, a dense layer, the skip
            connection x0 + …, and two more residual layers whose weights are stacked along a leading axis,
  with silu(x) = x · logistic(x). The kernel runs three row-blocked kernels (the edge chain, the triplet basis, the final
  dense stack) around the host's gather / product / scatter-add; the reference runs everything on the host with
  silu expanded as x · (1 / (1 + e^(−x))), which is the same function of an extended real.

  How the two results are joined. Every kernel computes an output row from the same row of its row-blocked operands and
  from whole weight matrices, so a block's entry (p, q) is the reference stage's entry (4096·t + p, q) (8192·t + p for
  the triplet kernel): `Layers`. Each kernel's blocks tile its output, so its output array IS the reference's stage of
  the arrays the kernel found: `Blocks0/1/2`. The host stretch between the kernels is the reference's own gather,
  product and scatter-add with the product's factors in the other order — commutativity of the product, the one
  algebraic law used, which holds at every extended real, so the precondition is never opened: `HostMiddle`. The kernel's
  run with its result array named: `KernelRun`. The reference's run and its stage-by-stage reading: `RunP`, `ReadP`.
  No rewrite was applied when the kernel was idealized, so there is nothing to preserve.
-/
import proofs.«156858_j62457414418909_2_alg».proof.Defs
import proofs.«156858_j62457414418909_2_alg».proof.Proof.Gen.Kernel
import proofs.«156858_j62457414418909_2_alg».proof.Proof.Gen.Kernel.Skeleton
import proofs.«156858_j62457414418909_2_alg».proof.Proof.Gen.Kernel.Launch
import proofs.«156858_j62457414418909_2_alg».proof.Proof.Gen.Kernel.Points
import proofs.«156858_j62457414418909_2_alg».proof.Proof.Gen.Kernel.Frame
import proofs.«156858_j62457414418909_2_alg».proof.Proof.Gen.KernelIdeal
import proofs.«156858_j62457414418909_2_alg».proof.Proof.Gen.KernelIdeal.Skeleton
import proofs.«156858_j62457414418909_2_alg».proof.Proof.Gen.KernelIdeal.Launch
import proofs.«156858_j62457414418909_2_alg».proof.Proof.Gen.KernelIdeal.Points
import proofs.«156858_j62457414418909_2_alg».proof.Proof.Gen.KernelIdeal.Frame
import proofs.«156858_j62457414418909_2_alg».proof.Proof.Gen.ReferenceIdeal
import proofs.«156858_j62457414418909_2_alg».proof.Proof.Gen.Pre_finite_inputs
import proofs.«156858_j62457414418909_2_alg».proof.Proof.KernelRun
import proofs.«156858_j62457414418909_2_alg».proof.Proof.HostMiddle
import proofs.«156858_j62457414418909_2_alg».proof.Proof.Blocks0
import proofs.«156858_j62457414418909_2_alg».proof.Proof.Blocks1
import proofs.«156858_j62457414418909_2_alg».proof.Proof.Blocks2
import proofs.«156858_j62457414418909_2_alg».proof.Proof.Layers
import proofs.«156858_j62457414418909_2_alg».proof.Proof.RunP
import proofs.«156858_j62457414418909_2_alg».proof.Proof.ReadP
import Idealize.ShloMosaic.Adequacy
import Idealize.ShloMosaic.Init

set_option maxRecDepth 16384

noncomputable section

namespace Cert.Proof

open Idealize.ShloMosaic Idealize.ShloMosaic.TcCoe Idealize.SL.Sem

/-! ## Each kernel's output array as the reference's stage of given arrays

Stated at a VARIABLE `V` for the buffer contents the kernel finds, with the operand arrays named by hypotheses: the run's
own contents are put in afterwards by plain application. -/

section Arrays

variable (V : (c : Dev Cert.KernelIdeal.nD) → (b : Ref Cert.KernelIdeal.sig .tc) → Buf (Elt Ideal) ((c : Thread Cert.KernelIdeal.nD Cert.KernelIdeal.τ).loc b))

/-- The edge kernel's output array is the reference's down-projected edge messages of the arrays it found. -/
theorem edge_array (c : Dev Cert.KernelIdeal.nD) (a0 : Buf (Elt Ideal) ((c : Thread Cert.KernelIdeal.nD Cert.KernelIdeal.τ).loc Cert.KernelIdeal.main_arg0)) (a1 : Buf (Elt Ideal) ((c : Thread Cert.KernelIdeal.nD Cert.KernelIdeal.τ).loc Cert.KernelIdeal.main_arg1)) (a6 : Buf (Elt Ideal) ((c : Thread Cert.KernelIdeal.nD Cert.KernelIdeal.τ).loc Cert.KernelIdeal.main_arg6)) (a7 : Buf (Elt Ideal) ((c : Thread Cert.KernelIdeal.nD Cert.KernelIdeal.τ).loc Cert.KernelIdeal.main_arg7)) (a12 : Buf (Elt Ideal) ((c : Thread Cert.KernelIdeal.nD Cert.KernelIdeal.τ).loc Cert.KernelIdeal.main_arg12)) (a13 : Buf (Elt Ideal) ((c : Thread Cert.KernelIdeal.nD Cert.KernelIdeal.τ).loc Cert.KernelIdeal.main_arg13)) (a14 : Buf (Elt Ideal) ((c : Thread Cert.KernelIdeal.nD Cert.KernelIdeal.τ).loc Cert.KernelIdeal.main_arg14))
    (ha0 : V c Cert.KernelIdeal.main_arg0 = a0) (ha1 : V c Cert.KernelIdeal.main_arg1 = a1) (ha6 : V c Cert.KernelIdeal.main_arg6 = a6) (ha7 : V c Cert.KernelIdeal.main_arg7 = a7) (ha12 : V c Cert.KernelIdeal.main_arg12 = a12) (ha13 : V c Cert.KernelIdeal.main_arg13 = a13) (ha14 : V c Cert.KernelIdeal.main_arg14 = a14) :
    (Cert.KernelIdeal.Gen.dat0 V c).arrAt 7 Cert.KernelIdeal.cfg0.N = Cert.ReferenceIdeal.ReadP.val_main_v16 (F := Ideal) a0 a1 a6 a7 a12 a13 a14 := by
  subst ha0 ha1 ha6 ha7 ha12 ha13 ha14
  exact Cert.KernelIdeal.Blocks.final0 V (Cert.ReferenceIdeal.ReadP.val_main_v16 (F := Ideal))
    (fun t ht A0 A1 W6 W7 W12 b13 W14 p q => Cert.Layers.edge_rows t ht A0 A1 W6 W7 W12 b13 W14 p q) c

/-- The triplet kernel's output array is the reference's transformed spherical basis of the arrays it found. -/
theorem trip_array (c : Dev Cert.KernelIdeal.nD) (a2 : Buf (Elt Ideal) ((c : Thread Cert.KernelIdeal.nD Cert.KernelIdeal.τ).loc Cert.KernelIdeal.main_arg2)) (a8 : Buf (Elt Ideal) ((c : Thread Cert.KernelIdeal.nD Cert.KernelIdeal.τ).loc Cert.KernelIdeal.main_arg8)) (a9 : Buf (Elt Ideal) ((c : Thread Cert.KernelIdeal.nD Cert.KernelIdeal.τ).loc Cert.KernelIdeal.main_arg9))
    (ha2 : V c Cert.KernelIdeal.main_arg2 = a2) (ha8 : V c Cert.KernelIdeal.main_arg8 = a8) (ha9 : V c Cert.KernelIdeal.main_arg9 = a9) :
    (Cert.KernelIdeal.Gen.dat1 V c).arrAt 3 Cert.KernelIdeal.cfg1.N = Cert.ReferenceIdeal.ReadP.val_main_v3 (F := Ideal) a2 a8 a9 := by
  subst ha2 ha8 ha9
  exact Cert.KernelIdeal.Blocks.final1 V (Cert.ReferenceIdeal.ReadP.val_main_v3 (F := Ideal))
    (fun t ht A W8 W9 p q => Cert.Layers.trip_rows t ht A W8 W9 p q) c

/-- The final kernel's output array is the reference's dense stack of the edge embeddings and the aggregate it found. -/
theorem tail_array (c : Dev Cert.KernelIdeal.nD) (a0 : Buf (Elt Ideal) ((c : Thread Cert.KernelIdeal.nD Cert.KernelIdeal.τ).loc Cert.KernelIdeal.main_arg0)) (kj : Buf (Elt Ideal) ((c : Thread Cert.KernelIdeal.nD Cert.KernelIdeal.τ).loc Cert.KernelIdeal.main_v14)) (a10 : Buf (Elt Ideal) ((c : Thread Cert.KernelIdeal.nD Cert.KernelIdeal.τ).loc Cert.KernelIdeal.main_arg10)) (a11 : Buf (Elt Ideal) ((c : Thread Cert.KernelIdeal.nD Cert.KernelIdeal.τ).loc Cert.KernelIdeal.main_arg11)) (a15 : Buf (Elt Ideal) ((c : Thread Cert.KernelIdeal.nD Cert.KernelIdeal.τ).loc Cert.KernelIdeal.main_arg15)) (a16 : Buf (Elt Ideal) ((c : Thread Cert.KernelIdeal.nD Cert.KernelIdeal.τ).loc Cert.KernelIdeal.main_arg16)) (a17 : Buf (Elt Ideal) ((c : Thread Cert.KernelIdeal.nD Cert.KernelIdeal.τ).loc Cert.KernelIdeal.main_arg17)) (a18 : Buf (Elt Ideal) ((c : Thread Cert.KernelIdeal.nD Cert.KernelIdeal.τ).loc Cert.KernelIdeal.main_arg18)) (a19 : Buf (Elt Ideal) ((c : Thread Cert.KernelIdeal.nD Cert.KernelIdeal.τ).loc Cert.KernelIdeal.main_arg19)) (a20 : Buf (Elt Ideal) ((c : Thread Cert.KernelIdeal.nD Cert.KernelIdeal.τ).loc Cert.KernelIdeal.main_arg20)) (a21 : Buf (Elt Ideal) ((c : Thread Cert.KernelIdeal.nD Cert.KernelIdeal.τ).loc Cert.KernelIdeal.main_arg21)) (a22 : Buf (Elt Ideal) ((c : Thread Cert.KernelIdeal.nD Cert.KernelIdeal.τ).loc Cert.KernelIdeal.main_arg22)) (a23 : Buf (Elt Ideal) ((c : Thread Cert.KernelIdeal.nD Cert.KernelIdeal.τ).loc Cert.KernelIdeal.main_arg23)) (a24 : Buf (Elt Ideal) ((c : Thread Cert.KernelIdeal.nD Cert.KernelIdeal.τ).loc Cert.KernelIdeal.main_arg24)) (a25 : Buf (Elt Ideal) ((c : Thread Cert.KernelIdeal.nD Cert.KernelIdeal.τ).loc Cert.KernelIdeal.main_arg25))
    (ha0 : V c Cert.KernelIdeal.main_arg0 = a0) (hkj : V c Cert.KernelIdeal.main_v14 = kj) (ha10 : V c Cert.KernelIdeal.main_arg10 = a10) (ha11 : V c Cert.KernelIdeal.main_arg11 = a11) (ha15 : V c Cert.KernelIdeal.main_arg15 = a15) (ha16 : V c Cert.KernelIdeal.main_arg16 = a16) (ha17 : V c Cert.KernelIdeal.main_arg17 = a17) (ha18 : V c Cert.KernelIdeal.main_arg18 = a18) (ha19 : V c Cert.KernelIdeal.main_arg19 = a19) (ha20 : V c Cert.KernelIdeal.main_arg20 = a20) (ha21 : V c Cert.KernelIdeal.main_arg21 = a21) (ha22 : V c Cert.KernelIdeal.main_arg22 = a22) (ha23 : V c Cert.KernelIdeal.main_arg23 = a23) (ha24 : V c Cert.KernelIdeal.main_arg24 = a24) (ha25 : V c Cert.KernelIdeal.main_arg25 = a25) :
    (Cert.KernelIdeal.Gen.dat2 V c).arrAt 15 Cert.KernelIdeal.cfg2.N = Cert.Layers.tailRef a0 kj a10 a11 a15 a16 a17 a18 a19 a20 a21 a22 a23 a24 a25 := by
  subst ha0 hkj ha10 ha11 ha15 ha16 ha17 ha18 ha19 ha20 ha21 ha22 ha23 ha24 ha25
  exact Cert.KernelIdeal.Blocks.final2 V Cert.Layers.tailRef
    (fun t ht A0 KJ x10 x11 x15 x16 x17 x18 x19 x20 x21 x22 x23 x24 x25 p q => Cert.Layers.final_rows t ht A0 KJ x10 x11 x15 x16 x17 x18 x19 x20 x21 x22 x23 x24 x25 p q) c

end Arrays

/-! ## The kernel's result array is the reference's last stage of the arguments -/

/-- After the three kernels and the host stretch between them, the result array holds the reference's last stage of the
    argument arrays as launched: the final kernel's blocks give the reference's dense stack of (x0, the aggregate), the
    aggregate is the host stretch of the first two kernels' outputs, and those are the reference's own edge chain and
    triplet basis. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 (F := Ideal) m ρ c (Proc.devRef .tc Cert.KernelIdeal.main_v15)
      = Cert.ReferenceIdeal.ReadP.val_main_v85 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18))
        (m ((c.tc : Thread Cert.KernelIdeal.nD Cert.KernelIdeal.τ).loc Cert.KernelIdeal.main_arg19))
        (m ((c.tc : Thread Cert.KernelIdeal.nD Cert.KernelIdeal.τ).loc Cert.KernelIdeal.main_arg20))
        (m ((c.tc : Thread Cert.KernelIdeal.nD Cert.KernelIdeal.τ).loc Cert.KernelIdeal.main_arg21))
        (m ((c.tc : Thread Cert.KernelIdeal.nD Cert.KernelIdeal.τ).loc Cert.KernelIdeal.main_arg22))
        (m ((c.tc : Thread Cert.KernelIdeal.nD Cert.KernelIdeal.τ).loc Cert.KernelIdeal.main_arg23))
        (m ((c.tc : Thread Cert.KernelIdeal.nD Cert.KernelIdeal.τ).loc Cert.KernelIdeal.main_arg24))
        (m ((c.tc : Thread Cert.KernelIdeal.nD Cert.KernelIdeal.τ).loc Cert.KernelIdeal.main_arg25)) :=
  have e0 := edge_array (Cert.KernelIdeal.Gen.V0 (F := Ideal) m ρ) c _ _ _ _ _ _ _
    (Cert.KernelIdeal.Middle.V0_arg0 m ρ c) (Cert.KernelIdeal.Middle.V0_arg1 m ρ c) (Cert.KernelIdeal.Middle.V0_arg6 m ρ c) (Cert.KernelIdeal.Middle.V0_arg7 m ρ c)
    (Cert.KernelIdeal.Middle.V0_arg12 m ρ c) (Cert.KernelIdeal.Middle.V0_arg13 m ρ c) (Cert.KernelIdeal.Middle.V0_arg14 m ρ c)
  have e1 := trip_array (Cert.KernelIdeal.Gen.V1 (F := Ideal) m ρ) c _ _ _
    (Cert.KernelIdeal.Middle.V1_arg2 m ρ c) (Cert.KernelIdeal.Middle.V1_arg8 m ρ c) (Cert.KernelIdeal.Middle.V1_arg9 m ρ c)
  have e14 : Cert.KernelIdeal.Gen.V3 (F := Ideal) m ρ c Cert.KernelIdeal.main_v14
      = Cert.ReferenceIdeal.ReadP.val_main_v27 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14)) :=
    (Cert.KernelIdeal.Middle.V3_v14 m ρ c).trans
      ((congrArg₂ (fun a b => Cert.KernelIdeal.Middle.middle (F := Ideal) a b (m ((c.tc : Thread Cert.KernelIdeal.nD Cert.KernelIdeal.τ).loc Cert.KernelIdeal.main_arg3)) (m ((c.tc : Thread Cert.KernelIdeal.nD Cert.KernelIdeal.τ).loc Cert.KernelIdeal.main_arg4))) e0 e1).trans
        (Cert.KernelIdeal.Middle.middle_ref (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))))
  (Cert.KernelIdeal.Middle.result_arr m ρ c).trans
    ((tail_array (Cert.KernelIdeal.Gen.V3 (F := Ideal) m ρ) c _ _ _ _ _ _ _ _ _ _ _ _ _ _ _
        (Cert.KernelIdeal.Middle.V3_arg0 m ρ c) e14 (Cert.KernelIdeal.Middle.V3_arg10 m ρ c) (Cert.KernelIdeal.Middle.V3_arg11 m ρ c) (Cert.KernelIdeal.Middle.V3_arg15 m ρ c) (Cert.KernelIdeal.Middle.V3_arg16 m ρ c) (Cert.KernelIdeal.Middle.V3_arg17 m ρ c) (Cert.KernelIdeal.Middle.V3_arg18 m ρ c) (Cert.KernelIdeal.Middle.V3_arg19 m ρ c) (Cert.KernelIdeal.Middle.V3_arg20 m ρ c) (Cert.KernelIdeal.Middle.V3_arg21 m ρ c) (Cert.KernelIdeal.Middle.V3_arg22 m ρ c) (Cert.KernelIdeal.Middle.V3_arg23 m ρ c) (Cert.KernelIdeal.Middle.V3_arg24 m ρ c) (Cert.KernelIdeal.Middle.V3_arg25 m ρ c)).trans
      (Cert.Layers.tailRef_eq (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18))
        (m ((c.tc : Thread Cert.KernelIdeal.nD Cert.KernelIdeal.τ).loc Cert.KernelIdeal.main_arg19))
        (m ((c.tc : Thread Cert.KernelIdeal.nD Cert.KernelIdeal.τ).loc Cert.KernelIdeal.main_arg20))
        (m ((c.tc : Thread Cert.KernelIdeal.nD Cert.KernelIdeal.τ).loc Cert.KernelIdeal.main_arg21))
        (m ((c.tc : Thread Cert.KernelIdeal.nD Cert.KernelIdeal.τ).loc Cert.KernelIdeal.main_arg22))
        (m ((c.tc : Thread Cert.KernelIdeal.nD Cert.KernelIdeal.τ).loc Cert.KernelIdeal.main_arg23))
        (m ((c.tc : Thread Cert.KernelIdeal.nD Cert.KernelIdeal.τ).loc Cert.KernelIdeal.main_arg24))
        (m ((c.tc : Thread Cert.KernelIdeal.nD Cert.KernelIdeal.τ).loc Cert.KernelIdeal.main_arg25))).symm)

/-! ## The claims -/

/-- The word-level kernel's frame: generated whole. -/
theorem frame_kernel : Cert.frame_Kernel := fun m ρ _ => Cert.Kernel.Gen.frame m ρ

/-- The idealized kernel's frame: generated whole. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Idealizing the kernel rewrote no operation. -/
theorem preserves : Cert.preserves_Kernel_KernelIdeal := trivial

/-- From memories agreeing on the arguments both programs end with the reference's last stage of those arguments in
    their result arrays. -/
theorem algebraic : Cert.algebraic_KernelIdeal_ReferenceIdeal := by
  intro m ρ m' ρ' _ hagree
  refine ⟨fun c => Cert.ReferenceIdeal.ReadP.val_main_v85 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25)), ?_, ?_⟩
  · exact (θ_run Cert.KernelIdeal.defs _ _).mono
      (fun r h c => ⟨(h c).1.trans (kernel_result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14, h15, h16, h17, h18, h19, h20, h21, h22, h23, h24, h25⟩ := hagree c
    simp only [h0, h1, h2, h3, h4, h6, h7, h8, h9, h10, h11, h12, h13, h14, h15, h16, h17, h18, h19, h20, h21, h22, h23, h24, h25]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
